-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x8 : Shape := ⟨3, ![16, 8, 8]⟩
abbrev S8x8x8 : Shape := ⟨3, ![8, 8, 8]⟩
abbrev S64x256 : Shape := ⟨2, ![64, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16x8x8 : S_.BroadcastsInDim S16x8x8 (![] : Fin 0 → Fin S16x8x8.rank)
  reducesTo_S16x8x8_S_d0_1_2 : S16x8x8.ReducesTo [0, 1, 2] S_
  h_S_ : 0 < S_.numel
  bcast_S_S8x8x8 : S_.BroadcastsInDim S8x8x8 (![] : Fin 0 → Fin S8x8x8.rank)
  reducesTo_S8x8x8_S_d0_1_2 : S8x8x8.ReducesTo [0, 1, 2] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16x8x8 .f32) (main_arg1 : FVec F S8x8x8 .f32) (main_arg2 : FVec F S64x256 .f32) (main_arg3 : FVec F S256 .f32) (main_arg4 : FVec F S256x1 .f32) (main_arg5 : FVec F S1 .f32) : IVec S_ 1 :=
  let main_v0 : FVec F S16x8x8 .f32 := Host.absf main_arg0
  let main_cst : FVec F S_ .f32 := constant S_ .f32 0x7F800000#32
  let main_v1 : FVec F S16x8x8 .f32 := broadcastInDim S16x8x8 ![] bcast_S_S16x8x8 main_cst
  let main_v2 : IVec S16x8x8 1 := cmpf .olt main_v0 main_v1
  let main_c : IVec S_ 1 := constantI S_ 1 1#1
  let main_v3 : IVec S_ 1 := (fun x v => Host.reduce IntOp.andi x v reducesTo_S16x8x8_S_d0_1_2 h_S_) main_v2 main_c
  let main_v4 : FVec F S8x8x8 .f32 := Host.absf main_arg1
  let main_cst_0 : FVec F S_ .f32 := constant S_ .f32 0x7F800000#32
  let main_v5 : FVec F S8x8x8 .f32 := broadcastInDim S8x8x8 ![] bcast_S_S8x8x8 main_cst_0
  let main_v6 : IVec S8x8x8 1 := cmpf .olt main_v4 main_v5
  let main_c_1 : IVec S_ 1 := constantI S_ 1 1#1
  let main_v7 : IVec S_ 1 := (fun x v => Host.reduce IntOp.andi x v reducesTo_S8x8x8_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16x8x8 : Shape := ⟨3, ![16, 8, 8]⟩
abbrev S8x8x8 : Shape := ⟨3, ![8, 8, 8]⟩
abbrev S64x256 : Shape := ⟨2, ![64, 256]⟩
abbrev S256 : Shape := ⟨1, ![256]⟩
abbrev S256x1 : Shape := ⟨2, ![256, 1]⟩
abbrev S1 : Shape := ⟨1, ![1]⟩
abbrev S16x64 : Shape := ⟨2, ![16, 64]⟩
abbrev S8x64 : Shape := ⟨2, ![8, 64]⟩
abbrev S16x256 : Shape := ⟨2, ![16, 256]⟩
abbrev S8x256 : Shape := ⟨2, ![8, 256]⟩
abbrev S8x1x256 : Shape := ⟨3, ![8, 1, 256]⟩
abbrev S1x8x256 : Shape := ⟨3, ![1, 8, 256]⟩
abbrev S8x8x256 : Shape := ⟨3, ![8, 8, 256]⟩
abbrev S64x1x256 : Shape := ⟨3, ![64, 1, 256]⟩
abbrev S1x64x256 : Shape := ⟨3, ![1, 64, 256]⟩
abbrev S64x64x256 : Shape := ⟨3, ![64, 64, 256]⟩
abbrev S4096x256 : Shape := ⟨2, ![4096, 256]⟩
abbrev S1x256 : Shape := ⟨2, ![1, 256]⟩
abbrev S1x1 : Shape := ⟨2, ![1, 1]⟩
abbrev S16x1x256 : Shape := ⟨3, ![16, 1, 256]⟩
abbrev S128x1x4096 : Shape := ⟨3, ![128, 1, 4096]⟩
abbrev S1x1x256 : Shape := ⟨3, ![1, 1, 256]⟩
abbrev S1x1x4096 : Shape := ⟨3, ![1, 1, 4096]⟩
abbrev S4096 : Shape := ⟨1, ![4096]⟩
abbrev S4096x1 : Shape := ⟨2, ![4096, 1]⟩
abbrev S1x4096 : Shape := ⟨2, ![1, 4096]⟩
abbrev S128x4096 : Shape := ⟨2, ![128, 4096]⟩
abbrev S16x8x8x8x8x8 : Shape := ⟨6, ![16, 8, 8, 8, 8, 8]⟩
abbrev S_ : Shape := ⟨0, ![]⟩
abbrev S16x8x8x8x8 : Shape := ⟨5, ![16, 8, 8, 8, 8]⟩
abbrev S16x8x8x8 : Shape := ⟨4, ![16, 8, 8, 8]⟩
abbrev S16x8 : Shape := ⟨2, ![16, 8]⟩
abbrev S16 : Shape := ⟨1, ![16]⟩

abbrev nBuf : Space → Nat
  | .hbm => 40
  | .vmem => 10
  | .smem => 0
  | _ => 0

abbrev bufTy : (tb : Table) → Fin (tcTables nBuf tb) → BufTy
  | .hbm, ⟨0, _⟩ => ⟨S16x8x8, .f32⟩
  | .hbm, ⟨1, _⟩ => ⟨S8x8x8, .f32⟩
  | .hbm, ⟨2, _⟩ => ⟨S64x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S16x64, .f32⟩
  | .hbm, ⟨7, _⟩ => ⟨S8x64, .f32⟩
  | .hbm, ⟨8, _⟩ => ⟨S16x256, .f32⟩
  | .hbm, ⟨9, _⟩ => ⟨S8x256, .f32⟩
  | .hbm, ⟨10, _⟩ => ⟨S8x1x256, .f32⟩
  | .hbm, ⟨11, _⟩ => ⟨S1x8x256, .f32⟩
  | .hbm, ⟨12, _⟩ => ⟨S8x8x256, .f32⟩
  | .hbm, ⟨13, _⟩ => ⟨S8x8x256, .f32⟩
  | .hbm, ⟨14, _⟩ => ⟨S8x8x256, .f32⟩
  | .hbm, ⟨15, _⟩ => ⟨S64x256, .f32⟩
  | .hbm, ⟨16, _⟩ => ⟨S64x1x256, .f32⟩
  | .hbm, ⟨17, _⟩ => ⟨S1x64x256, .f32⟩
  | .hbm, ⟨18, _⟩ => ⟨S64x64x256, .f32⟩
  | .hbm, ⟨19, _⟩ => ⟨S64x64x256, .f32⟩
  | .hbm, ⟨20, _⟩ => ⟨S64x64x256, .f32⟩
  | .hbm, ⟨21, _⟩ => ⟨S4096x256, .f32⟩
  | .hbm, ⟨22, _⟩ => ⟨S1x256, .f32⟩
  | .hbm, ⟨23, _⟩ => ⟨S1x256, .f32⟩
  | .hbm, ⟨24, _⟩ => ⟨S1x1, .f32⟩
  | .hbm, ⟨25, _⟩ => ⟨S16x1x256, .f32⟩
  | .hbm, ⟨26, _⟩ => ⟨S8x1x256, .f32⟩
  | .hbm, ⟨27, _⟩ => ⟨S128x1x4096, .f32⟩
  | .hbm, ⟨28, _⟩ => ⟨S128x4096, .f32⟩
  | .hbm, ⟨29, _⟩ => ⟨S16x8x8x8x8x8, .f32⟩
  | .hbm, ⟨30, _⟩ => ⟨S_, .f32⟩
  | .hbm, ⟨31, _⟩ => ⟨S16x8x8x8x8, .f32⟩
  | .hbm, ⟨32, _⟩ => ⟨S_, .f32⟩
  | .hbm, ⟨33, _⟩ => ⟨S16x8x8x8, .f32⟩
  | .hbm, ⟨34, _⟩ => ⟨S_, .f32⟩
  | .hbm, ⟨35, _⟩ => ⟨S16x8x8, .f32⟩
  | .hbm, ⟨36, _⟩ => ⟨S_, .f32⟩
  | .hbm, ⟨37, _⟩ => ⟨S16x8, .f32⟩
  | .hbm, ⟨38, _⟩ => ⟨S_, .f32⟩
  | .hbm, ⟨39, _⟩ => ⟨S16, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S4096x256, .f32⟩
  | .local _ .vmem, ⟨5, _⟩ => ⟨S1x256, .f32⟩
  | .local _ .vmem, ⟨6, _⟩ => ⟨S1x256, .f32⟩
  | .local _ .vmem, ⟨7, _⟩ => ⟨S1x1, .f32⟩
  | .local _ .vmem, ⟨8, _⟩ => ⟨S1x1x4096, .f32⟩
  | .local _ .vmem, ⟨9, _⟩ => ⟨S1x1x4096, .f32⟩
  | _, _ => ⟨S16x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_cst_0 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S16x8x8_S16x64 : S16x8x8.ShapeCasts S16x64
  shapeCasts_S8x8x8_S8x64 : S8x8x8.ShapeCasts S8x64
  bcast_S8x256_S8x1x256_0_2 : S8x256.BroadcastsInDim S8x1x256 (![0, 2] : Fin 2 → Fin S8x1x256.rank)
  bcast_S8x256_S1x8x256_1_2 : S8x256.BroadcastsInDim S1x8x256 (![1, 2] : Fin 2 → Fin S1x8x256.rank)
  bcast_S8x1x256_S8x8x256_0_1_2 : S8x1x256.BroadcastsInDim S8x8x256 (![0, 1, 2] : Fin 3 → Fin S8x8x256.rank)
  bcast_S1x8x256_S8x8x256_0_1_2 : S1x8x256.BroadcastsInDim S8x8x256 (![0, 1, 2] : Fin 3 → Fin S8x8x256.rank)
  shapeCasts_S8x8x256_S64x256 : S8x8x256.ShapeCasts S64x256
  bcast_S64x256_S64x1x256_0_2 : S64x256.BroadcastsInDim S64x1x256 (![0, 2] : Fin 2 → Fin S64x1x256.rank)
  bcast_S64x256_S1x64x256_1_2 : S64x256.BroadcastsInDim S1x64x256 (![1, 2] : Fin 2 → Fin S1x64x256.rank)
  bcast_S64x1x256_S64x64x256_0_1_2 : S64x1x256.BroadcastsInDim S64x64x256 (![0, 1, 2] : Fin 3 → Fin S64x64x256.rank)
  bcast_S1x64x256_S64x64x256_0_1_2 : S1x64x256.BroadcastsInDim S64x64x256 (![0, 1, 2] : Fin 3 → Fin S64x64x256.rank)
  shapeCasts_S64x64x256_S4096x256 : S64x64x256.ShapeCasts S4096x256
  shapeCasts_S256_S1x256 : S256.ShapeCasts S1x256
  shapeCasts_S256x1_S1x256 : S256x1.ShapeCasts S1x256
  shapeCasts_S1_S1x1 : S1.ShapeCasts S1x1
  shapeCasts_S16x256_S16x1x256 : S16x256.ShapeCasts S16x1x256
  shapeCasts_S8x256_S8x1x256 : S8x256.ShapeCasts S8x1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S4096x256 : S1x256.Broadcasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S4096x256_S4096 : S4096x256.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  transposes_S4096x1_p1_0_S1x4096 : S4096x1.Transposes [1, 0] S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S128x1x4096_S128x4096 : S128x1x4096.ShapeCasts S128x4096
  shapeCasts_S128x4096_S16x8x8x8x8x8 : S128x4096.ShapeCasts S16x8x8x8x8x8
  reducesTo_S16x8x8x8x8x8_S16x8x8x8x8_d5 : S16x8x8x8x8x8.ReducesTo [5] S16x8x8x8x8
  h_S_ : 0 < S_.numel
  reducesTo_S16x8x8x8x8_S16x8x8x8_d4 : S16x8x8x8x8.ReducesTo [4] S16x8x8x8
  reducesTo_S16x8x8x8_S16x8x8_d3 : S16x8x8x8.ReducesTo [3] S16x8x8
  reducesTo_S16x8x8_S16x8_d2 : S16x8x8.ReducesTo [2] S16x8
  reducesTo_S16x8_S16_d1 : S16x8.ReducesTo [1] S16
  dot_S16x64_S64x256_S16x256_1_0_0_1_n_n_wf : DotDims.WF S16x64 S64x256 S16x256 [1] [0] [0] [1] [] []
  dot_S8x64_S64x256_S8x256_1_0_0_1_n_n_wf : DotDims.WF S8x64 S64x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256.size a ≤ S16x1x256.size a
  hwx0_0 : ∀ i : grid0.Coords, EltTy.bits .f32 = 32 ∨ (Rect.block (s := S16x1x256) S1x1x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S8x1x256.size a
  hwx0_1 : ∀ i : grid0.Coords, EltTy.bits .f32 = 32 ∨ (Rect.block (s := S8x1x256) S1x1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x4096.size a ≤ S128x1x4096.size a
  hwx0_6 : ∀ i : grid0.Coords, EltTy.bits .f32 = 32 ∨ (Rect.block (s := S128x1x4096) S1x1x4096.size (cc0_transform_6 i) (hinb0_6 i)).WholeWords (EltTy.packing .f32)

variable [Facts₀]

def dot_S16x64_S64x256_S16x256_1_0_0_1_n_n : DotDims S16x64 S64x256 S16x256 where
  lhsContracting := [1]
  rhsContracting := [0]
  lhsNonContracting := [0]
  rhsNonContracting := [1]
  lhsBatch := []
  rhsBatch := []
  wf := dot_S16x64_S64x256_S16x256_1_0_0_1_n_n_wf
def dot_S8x64_S64x256_S8x256_1_0_0_1_n_n : DotDims S8x64 S64x256 S8x256 where
  lhsContracting := [1]
  rhsContracting := [0]
  lhsNonContracting := [0]
  rhsNonContracting := [1]
  lhsBatch := []
  rhsBatch := []
  wf := dot_S8x64_S64x256_S8x256_1_0_0_1_n_n_wf

abbrev win0_0 : Pipeline.Window sig grid0 :=
  Pipeline.Window.ofSpec (Memref.whole main_v19) S1x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x1x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x8x8 : Shape := ⟨3, ![16, 8, 8]⟩
abbrev S8x8x8 : Shape := ⟨3, ![8, 8, 8]⟩
abbrev S64x256 : Shape := ⟨2, ![64, 256]⟩
abbrev S256 : Shape := ⟨1, ![256]⟩
abbrev S256x1 : Shape := ⟨2, ![256, 1]⟩
abbrev S1 : Shape := ⟨1, ![1]⟩
abbrev S16x1x8x8 : Shape := ⟨4, ![16, 1, 8, 8]⟩
abbrev S1x8x8x8 : Shape := ⟨4, ![1, 8, 8, 8]⟩
abbrev S16x8x8x8 : Shape := ⟨4, ![16, 8, 8, 8]⟩
abbrev S128x8x8 : Shape := ⟨3, ![128, 8, 8]⟩
abbrev S128x1x8x8 : Shape := ⟨4, ![128, 1, 8, 8]⟩
abbrev S128x8x8x8 : Shape := ⟨4, ![128, 8, 8, 8]⟩
abbrev S1024x8x8 : Shape := ⟨3, ![1024, 8, 8]⟩
abbrev S1024x1x8x8 : Shape := ⟨4, ![1024, 1, 8, 8]⟩
abbrev S1024x8x8x8 : Shape := ⟨4, ![1024, 8, 8, 8]⟩
abbrev S8192x8x8 : Shape := ⟨3, ![8192, 8, 8]⟩
abbrev S8192x1x8x8 : Shape := ⟨4, ![8192, 1, 8, 8]⟩
abbrev S8192x8x8x8 : Shape := ⟨4, ![8192, 8, 8, 8]⟩
abbrev S65536x8x8 : Shape := ⟨3, ![65536, 8, 8]⟩
abbrev S65536x1x8x8 : Shape := ⟨4, ![65536, 1, 8, 8]⟩
abbrev S65536x8x8x8 : Shape := ⟨4, ![65536, 8, 8, 8]⟩
abbrev S524288x8x8 : Shape := ⟨3, ![524288, 8, 8]⟩
abbrev S524288x64 : Shape := ⟨2, ![524288, 64]⟩
abbrev S524288x256 : Shape := ⟨2, ![524288, 256]⟩
abbrev S1x256 : Shape := ⟨2, ![1, 256]⟩
abbrev S524288x1 : Shape := ⟨2, ![524288, 1]⟩
abbrev S1x1 : Shape := ⟨2, ![1, 1]⟩
abbrev S524288 : Shape := ⟨1, ![524288]⟩
abbrev S16x8x8x8x8x8 : Shape := ⟨6, ![16, 8, 8, 8, 8, 8]⟩
abbrev S_ : Shape := ⟨0, ![]⟩
abbrev S16x8x8x8x8 : Shape := ⟨5, ![16, 8, 8, 8, 8]⟩
abbrev S16x8 : Shape := ⟨2, ![16, 8]⟩
abbrev S16 : Shape := ⟨1, ![16]⟩

abbrev nBuf : Space → Nat
  | .hbm => 58
  | .vmem => 0
  | .smem => 0
  | _ => 0

abbrev bufTy : (tb : Table) → Fin (tcTables nBuf tb) → BufTy
  | .hbm, ⟨0, _⟩ => ⟨S16x8x8, .f32⟩
  | .hbm, ⟨1, _⟩ => ⟨S8x8x8, .f32⟩
  | .hbm, ⟨2, _⟩ => ⟨S64x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S16x1x8x8, .f32⟩
  | .hbm, ⟨7, _⟩ => ⟨S1x8x8x8, .f32⟩
  | .hbm, ⟨8, _⟩ => ⟨S16x8x8x8, .f32⟩
  | .hbm, ⟨9, _⟩ => ⟨S16x8x8x8, .f32⟩
  | .hbm, ⟨10, _⟩ => ⟨S16x8x8x8, .f32⟩
  | .hbm, ⟨11, _⟩ => ⟨S128x8x8, .f32⟩
  | .hbm, ⟨12, _⟩ => ⟨S128x1x8x8, .f32⟩
  | .hbm, ⟨13, _⟩ => ⟨S1x8x8x8, .f32⟩
  | .hbm, ⟨14, _⟩ => ⟨S128x8x8x8, .f32⟩
  | .hbm, ⟨15, _⟩ => ⟨S128x8x8x8, .f32⟩
  | .hbm, ⟨16, _⟩ => ⟨S128x8x8x8, .f32⟩
  | .hbm, ⟨17, _⟩ => ⟨S1024x8x8, .f32⟩
  | .hbm, ⟨18, _⟩ => ⟨S1024x1x8x8, .f32⟩
  | .hbm, ⟨19, _⟩ => ⟨S1x8x8x8, .f32⟩
  | .hbm, ⟨20, _⟩ => ⟨S1024x8x8x8, .f32⟩
  | .hbm, ⟨21, _⟩ => ⟨S1024x8x8x8, .f32⟩
  | .hbm, ⟨22, _⟩ => ⟨S1024x8x8x8, .f32⟩
  | .hbm, ⟨23, _⟩ => ⟨S8192x8x8, .f32⟩
  | .hbm, ⟨24, _⟩ => ⟨S8192x1x8x8, .f32⟩
  | .hbm, ⟨25, _⟩ => ⟨S1x8x8x8, .f32⟩
  | .hbm, ⟨26, _⟩ => ⟨S8192x8x8x8, .f32⟩
  | .hbm, ⟨27, _⟩ => ⟨S8192x8x8x8, .f32⟩
  | .hbm, ⟨28, _⟩ => ⟨S8192x8x8x8, .f32⟩
  | .hbm, ⟨29, _⟩ => ⟨S65536x8x8, .f32⟩
  | .hbm, ⟨30, _⟩ => ⟨S65536x1x8x8, .f32⟩
  | .hbm, ⟨31, _⟩ => ⟨S1x8x8x8, .f32⟩
  | .hbm, ⟨32, _⟩ => ⟨S65536x8x8x8, .f32⟩
  | .hbm, ⟨33, _⟩ => ⟨S65536x8x8x8, .f32⟩
  | .hbm, ⟨34, _⟩ => ⟨S65536x8x8x8, .f32⟩
  | .hbm, ⟨35, _⟩ => ⟨S524288x8x8, .f32⟩
  | .hbm, ⟨36, _⟩ => ⟨S524288x64, .f32⟩
  | .hbm, ⟨37, _⟩ => ⟨S524288x256, .f32⟩
  | .hbm, ⟨38, _⟩ => ⟨S1x256, .f32⟩
  | .hbm, ⟨39, _⟩ => ⟨S524288x256, .f32⟩
  | .hbm, ⟨40, _⟩ => ⟨S524288x256, .f32⟩
  | .hbm, ⟨41, _⟩ => ⟨S524288x256, .f32⟩
  | .hbm, ⟨42, _⟩ => ⟨S524288x1, .f32⟩
  | .hbm, ⟨43, _⟩ => ⟨S1x1, .f32⟩
  | .hbm, ⟨44, _⟩ => ⟨S524288x1, .f32⟩
  | .hbm, ⟨45, _⟩ => ⟨S524288x1, .f32⟩
  | .hbm, ⟨46, _⟩ => ⟨S524288, .f32⟩
  | .hbm, ⟨47, _⟩ => ⟨S16x8x8x8x8x8, .f32⟩
  | .hbm, ⟨48, _⟩ => ⟨S_, .f32⟩
  | .hbm, ⟨49, _⟩ => ⟨S16x8x8x8x8, .f32⟩
  | .hbm, ⟨50, _⟩ => ⟨S_, .f32⟩
  | .hbm, ⟨51, _⟩ => ⟨S16x8x8x8, .f32⟩
  | .hbm, ⟨52, _⟩ => ⟨S_, .f32⟩
  | .hbm, ⟨53, _⟩ => ⟨S16x8x8, .f32⟩
  | .hbm, ⟨54, _⟩ => ⟨S_, .f32⟩
  | .hbm, ⟨55, _⟩ => ⟨S16x8, .f32⟩
  | .hbm, ⟨56, _⟩ => ⟨S_, .f32⟩
  | .hbm, ⟨57, _⟩ => ⟨S16, .f32⟩
  | _, _ => ⟨S16x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst : Ref sig .tc := ⟨.hbm, 48, rfl⟩
abbrev main_v42 : Ref sig .tc := ⟨.hbm, 49, rfl⟩
abbrev main_cst_0 : Ref sig .tc := ⟨.hbm, 50, rfl⟩
abbrev main_v43 : Ref sig .tc := ⟨.hbm, 51, rfl⟩
abbrev main_cst_1 : Ref sig .tc := ⟨.hbm, 52, rfl⟩
abbrev main_v44 : Ref sig .tc := ⟨.hbm, 53, rfl⟩
abbrev main_cst_2 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩

abbrev nD : Nat := 1
abbrev τ : Topo := Topo.v7x

variable {F : FTy → Type} [FloatOps F]

class Facts₀ : Prop where
  bcast_S16x8x8_S16x1x8x8_0_2_3 : S16x8x8.BroadcastsInDim S16x1x8x8 (![0, 2, 3] : Fin 3 → Fin S16x1x8x8.rank)
  bcast_S8x8x8_S1x8x8x8_1_2_3 : S8x8x8.BroadcastsInDim S1x8x8x8 (![1, 2, 3] : Fin 3 → Fin S1x8x8x8.rank)
  bcast_S16x1x8x8_S16x8x8x8_0_1_2_3 : S16x1x8x8.BroadcastsInDim S16x8x8x8 (![0, 1, 2, 3] : Fin 4 → Fin S16x8x8x8.rank)
  bcast_S1x8x8x8_S16x8x8x8_0_1_2_3 : S1x8x8x8.BroadcastsInDim S16x8x8x8 (![0, 1, 2, 3] : Fin 4 → Fin S16x8x8x8.rank)
  shapeCasts_S16x8x8x8_S128x8x8 : S16x8x8x8.ShapeCasts S128x8x8
  bcast_S128x8x8_S128x1x8x8_0_2_3 : S128x8x8.BroadcastsInDim S128x1x8x8 (![0, 2, 3] : Fin 3 → Fin S128x1x8x8.rank)
  bcast_S128x1x8x8_S128x8x8x8_0_1_2_3 : S128x1x8x8.BroadcastsInDim S128x8x8x8 (![0, 1, 2, 3] : Fin 4 → Fin S128x8x8x8.rank)
  bcast_S1x8x8x8_S128x8x8x8_0_1_2_3 : S1x8x8x8.BroadcastsInDim S128x8x8x8 (![0, 1, 2, 3] : Fin 4 → Fin S128x8x8x8.rank)
  shapeCasts_S128x8x8x8_S1024x8x8 : S128x8x8x8.ShapeCasts S1024x8x8
  bcast_S1024x8x8_S1024x1x8x8_0_2_3 : S1024x8x8.BroadcastsInDim S1024x1x8x8 (![0, 2, 3] : Fin 3 → Fin S1024x1x8x8.rank)
  bcast_S1024x1x8x8_S1024x8x8x8_0_1_2_3 : S1024x1x8x8.BroadcastsInDim S1024x8x8x8 (![0, 1, 2, 3] : Fin 4 → Fin S1024x8x8x8.rank)
  bcast_S1x8x8x8_S1024x8x8x8_0_1_2_3 : S1x8x8x8.BroadcastsInDim S1024x8x8x8 (![0, 1, 2, 3] : Fin 4 → Fin S1024x8x8x8.rank)
  shapeCasts_S1024x8x8x8_S8192x8x8 : S1024x8x8x8.ShapeCasts S8192x8x8
  bcast_S8192x8x8_S8192x1x8x8_0_2_3 : S8192x8x8.BroadcastsInDim S8192x1x8x8 (![0, 2, 3] : Fin 3 → Fin S8192x1x8x8.rank)
  bcast_S8192x1x8x8_S8192x8x8x8_0_1_2_3 : S8192x1x8x8.BroadcastsInDim S8192x8x8x8 (![0, 1, 2, 3] : Fin 4 → Fin S8192x8x8x8.rank)
  bcast_S1x8x8x8_S8192x8x8x8_0_1_2_3 : S1x8x8x8.BroadcastsInDim S8192x8x8x8 (![0, 1, 2, 3] : Fin 4 → Fin S8192x8x8x8.rank)
  shapeCasts_S8192x8x8x8_S65536x8x8 : S8192x8x8x8.ShapeCasts S65536x8x8
  bcast_S65536x8x8_S65536x1x8x8_0_2_3 : S65536x8x8.BroadcastsInDim S65536x1x8x8 (![0, 2, 3] : Fin 3 → Fin S65536x1x8x8.rank)
  bcast_S65536x1x8x8_S65536x8x8x8_0_1_2_3 : S65536x1x8x8.BroadcastsInDim S65536x8x8x8 (![0, 1, 2, 3] : Fin 4 → Fin S65536x8x8x8.rank)
  bcast_S1x8x8x8_S65536x8x8x8_0_1_2_3 : S1x8x8x8.BroadcastsInDim S65536x8x8x8 (![0, 1, 2, 3] : Fin 4 → Fin S65536x8x8x8.rank)
  shapeCasts_S65536x8x8x8_S524288x8x8 : S65536x8x8x8.ShapeCasts S524288x8x8
  shapeCasts_S524288x8x8_S524288x64 : S524288x8x8.ShapeCasts S524288x64
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S524288 : S524288x1.ShapeCasts S524288
  shapeCasts_S524288_S16x8x8x8x8x8 : S524288.ShapeCasts S16x8x8x8x8x8
  reducesTo_S16x8x8x8x8x8_S16x8x8x8x8_d5 : S16x8x8x8x8x8.ReducesTo [5] S16x8x8x8x8
  h_S_ : 0 < S_.numel
  reducesTo_S16x8x8x8x8_S16x8x8x8_d4 : S16x8x8x8x8.ReducesTo [4] S16x8x8x8
  reducesTo_S16x8x8x8_S16x8x8_d3 : S16x8x8x8.ReducesTo [3] S16x8x8
  reducesTo_S16x8x8_S16x8_d2 : S16x8x8.ReducesTo [2] S16x8
  reducesTo_S16x8_S16_d1 : S16x8.ReducesTo [1] S16
  dot_S524288x64_S64x256_S524288x256_1_0_0_1_n_n_wf : DotDims.WF S524288x64 S64x256 S524288x256 [1] [0] [0] [1] [] []
  dot_S524288x256_S256x1_S524288x1_1_0_0_1_n_n_wf : DotDims.WF S524288x256 S256x1 S524288x1 [1] [0] [0] [1] [] []

variable [Facts₀]

def dot_S524288x64_S64x256_S524288x256_1_0_0_1_n_n : DotDims S524288x64 S64x256 S524288x256 where
  lhsContracting := [1]
  rhsContracting := [0]
  lhsNonContracting := [0]
  rhsNonContracting := [1]
  lhsBatch := []
  rhsBatch := []
  wf := dot_S524288x64_S64x256_S524288x256_1_0_0_1_n_n_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf

class Facts : Prop extends Facts₀ where

variable [Facts]
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.BodyValue.lean ====
/-
  What one grid step of the kernel stores, entry by entry.

  The body holds a 4096×256 table T, three rows of 256 (the root's projection u, the first move's projection v, the
  bias b1), the output weights w (a row of 256) and the output bias c (one number). It stores the row vector whose
  r-th entry is
      Σ_j tanh(((T r j + u j) + v j) + b1 j) · w j  +  c :
  the three rows are broadcast down the table and added in that order, tanh is taken entry by entry, each row of the
  product with w is summed from the zero accumulator, the bias is added to the column of sums, and the column is
  transposed to a row and given a leading unit axis for the store.
-/
import proofs.«136526_j14585708937680_2_alg».proof.Proof.Gen.KernelIdeal.Skeleton
import proofs.«136526_j14585708937680_2_alg».proof.Proof.LibAxisFold
import proofs.«136526_j14585708937680_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.BodyValue

open Idealize.ShloMosaic Idealize.ShloMosaic.ValueIdx Cert.KernelIdeal Cert.KernelIdeal.Gen

/-- A row of 256 held as a [1,1,256] block, viewed as [1,256] and broadcast down 4096 rows, reads the row at the column. -/
theorem row3_apply (y : Vec Ideal S1x1x256 .f32) (r : Fin 4096) (j : Fin 256) :
    broadcastTo S4096x256 (shapeCast S1x256 y shapeCasts_S1x1x256_S1x256) broadcasts_S1x256_S4096x256 (ix2 r j)
      = y (ix3 (0 : Fin 1) (0 : Fin 1) j) :=
  (broadcastTo_1b_ab_apply _ broadcasts_S1x256_S4096x256 r j).trans
    (shapeCast_1ab_ab_apply y shapeCasts_S1x1x256_S1x256 (0 : Fin 1) j)

/-- A row of 256 held as a [1,256] block, broadcast down 4096 rows, reads the row at the column. -/
theorem row2_apply (y : Vec Ideal S1x256 .f32) (r : Fin 4096) (j : Fin 256) :
    broadcastTo S4096x256 (shapeCast S1x256 y shapeCasts_S1x256_S1x256) broadcasts_S1x256_S4096x256 (ix2 r j)
      = y (ix2 (0 : Fin 1) j) :=
  (broadcastTo_1b_ab_apply _ broadcasts_S1x256_S4096x256 r j).trans
    (congrFun (shapeCast_self y shapeCasts_S1x256_S1x256) _)

/-- One number held as a [1,1] block, broadcast down a column of 4096, reads that number. -/
theorem one_apply (y : Vec Ideal S1x1 .f32) (r : Fin 4096) :
    broadcastTo S4096x1 (shapeCast S1x1 y shapeCasts_S1x1_S1x1) broadcasts_S1x1_S4096x1 (ix2 r (0 : Fin 1))
      = y (ix2 (0 : Fin 1) (0 : Fin 1)) :=
  (broadcastTo_1b_ab_apply _ broadcasts_S1x1_S4096x1 r (0 : Fin 1)).trans
    (congrFun (shapeCast_self y shapeCasts_S1x1_S1x1) _)

/-- The stored block at entry r. -/
theorem stored_apply (T : Vec Ideal S4096x256 .f32) (u v : Vec Ideal S1x1x256 .f32) (b1 w : Vec Ideal S1x256 .f32)
    (c : Vec Ideal S1x1 .f32) (r : Fin 4096) :
    k0_pay1 (F := Ideal) T u v b1 w c (ix3 (0 : Fin 1) (0 : Fin 1) r)
      = (∑ j : Fin 256, Ideal.tanh (((T (ix2 r j) + u (ix3 (0 : Fin 1) (0 : Fin 1) j)) + v (ix3 (0 : Fin 1) (0 : Fin 1) j))
            + b1 (ix2 (0 : Fin 1) j)) * w (ix2 (0 : Fin 1) j))
        + c (ix2 (0 : Fin 1) (0 : Fin 1)) := by
  unfold k0_pay1
  -- the leading unit axis, then the transpose: entry (0,0,r) of the store is entry (r,0) of the column
  refine (shapeCast_ab_1ab_apply _ shapeCasts_S1x4096_S1x1x4096 (0 : Fin 1) (0 : Fin 1) r).trans ?_
  refine (transpose_ix2_apply _ transposes_S4096x1_p1_0_S1x4096 (0 : Fin 1) r).trans ?_
  -- the column is the row sums kept as a unit axis, plus the bias
  refine (addf_apply _ _ _).trans ?_
  refine congrArg₂ (· + ·) ?_ (one_apply c r)
  refine (Keepdims.shapeCast_a_a1_apply _ shapeCasts_S4096_S4096x1 r (0 : Fin 1)).trans ?_
  refine (AxisFold.sum_second_apply _ reduces_S4096x256_S4096 (.inl rfl) rfl r).trans ?_
  refine Finset.sum_congr rfl fun j _ => ?_
  -- one term of the sum
  refine (mulf_apply _ _ _).trans ?_
  refine congrArg₂ (· * ·) ?_ (row2_apply w r j)
  show Ideal.tanh _ = Ideal.tanh _
  refine congrArg Ideal.tanh ?_
  refine (addf_apply _ _ _).trans ?_
  refine congrArg₂ (· + ·) ?_ (row2_apply b1 r j)
  refine (addf_apply _ _ _).trans ?_
  refine congrArg₂ (· + ·) ?_ (row3_apply v r j)
  refine (addf_apply _ _ _).trans ?_
  refine congrArg₂ (· + ·) ?_ (row3_apply u r j)
  exact congrFun (shapeCast_self T shapeCasts_S4096x256_S4096x256) _

end Cert.BodyValue

end
-- ==== Proof.GridValue.lean ====
/-
  The array the kernel's grid leaves, as one function of the arrays its windows read.

  The grid has 16·8 points (b, m1). Point (b, m1) reads row b of the roots' projections (a [16,1,256] array), row m1
  of the moves' projections ([8,1,256]), and the whole of the table, the two rows and the one number that do not move
  with the point; it writes row b·8 + m1 of the [128,1,4096] output. So the output's entry (p, 0, r) is
      Σ_j tanh(((T r j + XW (p / 8) j) + DW (p % 8) j) + B1 j) · W j + C,
  every row p is written by exactly the point (p / 8, p % 8), and the rows tile the array.
-/
import proofs.«136526_j14585708937680_2_alg».proof.Proof.Gen.KernelIdeal.Frame
import proofs.«136526_j14585708937680_2_alg».proof.Proof.BodyValue
import Idealize.ShloMosaic.Lib.Pipeline.Value

set_option maxRecDepth 16384

noncomputable section

open scoped BigOperators

namespace Cert.GridValue

open Idealize.ShloMosaic Idealize.ShloMosaic.TcCoe Idealize.ShloMosaic.ValueIdx Idealize.SL.Sem
open Cert.KernelIdeal Cert.KernelIdeal.Gen

/-- The output array's entries from the six arrays the windows read. -/
def rows (XW : S16x1x256.Idx → EReal) (DW : S8x1x256.Idx → EReal) (T : S4096x256.Idx → EReal)
    (B1 W : S1x256.Idx → EReal) (C : S1x1.Idx → EReal) : S128x1x4096.Idx → EReal := fun i =>
  (∑ j : Fin 256, Ideal.tanh (((T (ix2 (⟨(i 2).val, (i 2).isLt⟩ : Fin 4096) j)
        + XW (ix3 ⟨(i 0).val / 8, by have h : (i 0).val < 128 := (i 0).isLt; omega⟩ (0 : Fin 1) j))
        + DW (ix3 ⟨(i 0).val % 8, by omega⟩ (0 : Fin 1) j))
        + B1 (ix2 (0 : Fin 1) j)) * W (ix2 (0 : Fin 1) j))
    + C (ix2 (0 : Fin 1) (0 : Fin 1))

/-- One point's stored block is a row of `rows`, given that the blocks it read are the rows and the whole arrays named:
    stated over plain arrays and a plain block index. -/
theorem point_row (T : Vec Ideal S4096x256 .f32) (u v : Vec Ideal S1x1x256 .f32) (b1 w : Vec Ideal S1x256 .f32)
    (c : Vec Ideal S1x1 .f32)
    (XW : S16x1x256.Idx → EReal) (DW : S8x1x256.Idx → EReal) (TT : S4096x256.Idx → EReal)
    (B1 W : S1x256.Idx → EReal) (C : S1x1.Idx → EReal) (i : S128x1x4096.Idx) (y : S1x1x4096.Idx)
    (hy : (i 2).val = (y 2).val)
    (hT : ∀ (r : Fin 4096) (j : Fin 256), T (ix2 r j) = TT (ix2 r j))
    (hu : ∀ j : Fin 256, u (ix3 (0 : Fin 1) (0 : Fin 1) j)
      = XW (ix3 ⟨(i 0).val / 8, by have h : (i 0).val < 128 := (i 0).isLt; omega⟩ (0 : Fin 1) j))
    (hv : ∀ j : Fin 256, v (ix3 (0 : Fin 1) (0 : Fin 1) j) = DW (ix3 ⟨(i 0).val % 8, by omega⟩ (0 : Fin 1) j))
    (hb : ∀ j : Fin 256, b1 (ix2 (0 : Fin 1) j) = B1 (ix2 (0 : Fin 1) j))
    (hw : ∀ j : Fin 256, w (ix2 (0 : Fin 1) j) = W (ix2 (0 : Fin 1) j))
    (hc : c (ix2 (0 : Fin 1) (0 : Fin 1)) = C (ix2 (0 : Fin 1) (0 : Fin 1))) :
    k0_pay1 (F := Ideal) T u v b1 w c y = rows XW DW TT B1 W C i := by
  have ey : y = ix3 (0 : Fin 1) (0 : Fin 1) (⟨(y 2).val, (y 2).isLt⟩ : Fin 4096) := by
    funext a; apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl
  refine (congrArg (k0_pay1 (F := Ideal) T u v b1 w c) ey).trans ?_
  refine (BodyValue.stored_apply T u v b1 w c _).trans ?_
  unfold rows
  have e2 : (⟨(y 2).val, (y 2).isLt⟩ : Fin 4096) = ⟨(i 2).val, (i 2).isLt⟩ := Fin.ext hy.symm
  simp only [hT, hu, hv, hb, hw, hc, e2]

variable (m : (ℓ : Loc nD τ sig) → Buf (Elt Ideal) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Which block each window is on at each of the 128 points, relative to the output's row p: the roots' row p / 8, the
    moves' row p % 8, block 0 of everything else; and the output's row is below 128. -/
theorem block_facts : ∀ t : Fin cfg0.N,
    win0_0.index t (0 : Fin 3) = win0_6.index t (0 : Fin 3) / 8 ∧ win0_0.index t (1 : Fin 3) = 0 ∧ win0_0.index t (2 : Fin 3) = 0
    ∧ win0_1.index t (0 : Fin 3) = win0_6.index t (0 : Fin 3) % 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) < 128 ∧ win0_6.index t (1 : Fin 3) = 0 ∧ win0_6.index t (2 : Fin 3) = 0 :=
  (by decide +kernel : ∀ t : Fin grid0.N, _)

/-- Every output row is some point's. -/
theorem row_onto : ∀ q : Fin 128, ∃ t : Fin cfg0.N, win0_6.index t = ![q.val, 0, 0] :=
  (by decide +kernel : ∀ q : Fin 128, ∃ t : Fin grid0.N, win0_6.index t = ![q.val, 0, 0])

/-- What point t writes back is its row of `rows` of the arrays as the grid finds them. -/
theorem flushed_row (c : Dev nD) (t : Fin cfg0.N) :
    (dats m 0 c).flushed 6 t = ((cfg0.win 6).blk t).view.read (Elt Ideal)
      (rows (V m c main_v19) (V m c main_v20) (V m c main_v15) (V m c main_v16) (V m c main_v17) (V m c main_v18)) := by
  show (cfg0.win 6).cut (grid0.coords t) ((dats m 0 c).after 6 t) = _
  rw [after0_6]
  unfold out0_6
  rw [View.canon_unit_zero zeros3]
  simp only [View.ld_unit_zero (S := S4096x256) zeros2, View.ld_unit_zero (S := S1x1x256) zeros3,
    View.ld_unit_zero (S := S1x256) zeros2, View.ld_unit_zero (S := S1x1) zeros2]
  obtain ⟨a0, a1, a2, b0, b1, b2, c0, c1, d0, d1, e0, e1, f0, f1, g0, g1, g2⟩ := block_facts t
  funext y
  have hy0 : (y 0).val < 1 := (y 0).isLt
  refine point_row (iblk m c 2 t) (iblk m c 0 t) (iblk m c 1 t) (iblk m c 3 t) (iblk m c 4 t) (iblk m c 5 t)
    (V m c main_v19) (V m c main_v20) (V m c main_v15) (V m c main_v16) (V m c main_v17) (V m c main_v18)
    (((cfg0.win 6).blk t).view.emb y) y ?_ ?_ ?_ ?_ ?_ ?_ ?_
  · show win0_6.index t (2 : Fin 3) * 4096 + 1 * (y 2).val = (y 2).val
    omega
  · intro r j
    show V m c main_v15 (((cfg0.win 2).blk t).view.emb (ix2 r j)) = V m c main_v15 (ix2 r j)
    refine congrArg (V m c main_v15) (funext fun a => Fin.ext ?_)
    match a with
    | ⟨0, _⟩ => show win0_2.index t (0 : Fin 2) * 4096 + 1 * r.val = r.val; omega
    | ⟨1, _⟩ => show win0_2.index t (1 : Fin 2) * 256 + 1 * j.val = j.val; omega
  · intro j
    show V m c main_v19 (((cfg0.win 0).blk t).view.emb (ix3 (0 : Fin 1) (0 : Fin 1) j)) = V m c main_v19 _
    refine congrArg (V m c main_v19) (funext fun a => Fin.ext ?_)
    match a with
    | ⟨0, _⟩ => show win0_0.index t (0 : Fin 3) * 1 + 1 * 0 = (win0_6.index t (0 : Fin 3) * 1 + 1 * (y 0).val) / 8; omega
    | ⟨1, _⟩ => show win0_0.index t (1 : Fin 3) * 1 + 1 * 0 = 0; omega
    | ⟨2, _⟩ => show win0_0.index t (2 : Fin 3) * 256 + 1 * j.val = j.val; omega
  · intro j
    show V m c main_v20 (((cfg0.win 1).blk t).view.emb (ix3 (0 : Fin 1) (0 : Fin 1) j)) = V m c main_v20 _
    refine congrArg (V m c main_v20) (funext fun a => Fin.ext ?_)
    match a with
    | ⟨0, _⟩ => show win0_1.index t (0 : Fin 3) * 1 + 1 * 0 = (win0_6.index t (0 : Fin 3) * 1 + 1 * (y 0).val) % 8; omega
    | ⟨1, _⟩ => show win0_1.index t (1 : Fin 3) * 1 + 1 * 0 = 0; omega
    | ⟨2, _⟩ => show win0_1.index t (2 : Fin 3) * 256 + 1 * j.val = j.val; omega
  · intro j
    show V m c main_v16 (((cfg0.win 3).blk t).view.emb (ix2 (0 : Fin 1) j)) = V m c main_v16 (ix2 (0 : Fin 1) j)
    refine congrArg (V m c main_v16) (funext fun a => Fin.ext ?_)
    match a with
    | ⟨0, _⟩ => show win0_3.index t (0 : Fin 2) * 1 + 1 * 0 = 0; omega
    | ⟨1, _⟩ => show win0_3.index t (1 : Fin 2) * 256 + 1 * j.val = j.val; omega
  · intro j
    show V m c main_v17 (((cfg0.win 4).blk t).view.emb (ix2 (0 : Fin 1) j)) = V m c main_v17 (ix2 (0 : Fin 1) j)
    refine congrArg (V m c main_v17) (funext fun a => Fin.ext ?_)
    match a with
    | ⟨0, _⟩ => show win0_4.index t (0 : Fin 2) * 1 + 1 * 0 = 0; omega
    | ⟨1, _⟩ => show win0_4.index t (1 : Fin 2) * 256 + 1 * j.val = j.val; omega
  · show V m c main_v18 (((cfg0.win 5).blk t).view.emb (ix2 (0 : Fin 1) (0 : Fin 1))) = V m c main_v18 (ix2 (0 : Fin 1) (0 : Fin 1))
    refine congrArg (V m c main_v18) (funext fun a => Fin.ext ?_)
    match a with
    | ⟨0, _⟩ => show win0_5.index t (0 : Fin 2) * 1 + 1 * 0 = 0; omega
    | ⟨1, _⟩ => show win0_5.index t (1 : Fin 2) * 1 + 1 * 0 = 0; omega

/-- An index of the output array is in point t's block iff each coordinate is in the block's range on its axis. -/
theorem mem_row (t : Fin cfg0.N) (i : S128x1x4096.Idx) :
    i ∈ ((cfg0.win 6).blk t).view.set ↔ ∀ a : Fin 3, win0_6.index t a * S1x1x4096.size a ≤ (i a).val
      ∧ (i a).val < win0_6.index t a * S1x1x4096.size a + S1x1x4096.size a := by
  show i ∈ ((View.whole main_v21).slice (win0_6.rect t)).set ↔ _
  rw [View.set_slice_whole, Rect.mem_set_unit]
  exact Iff.rfl

/-- The rows tile the array: entry (p, 0, r) is in the block of the point that writes row p. -/
theorem rows_cover (i : S128x1x4096.Idx) :
    ∃ t : Fin cfg0.N, (cfg0.win 6).flush t = true ∧ i ∈ ((cfg0.win 6).blk t).view.set := by
  have h0 : (i 0).val < 128 := (i 0).isLt
  have h1 : (i 1).val < 1 := (i 1).isLt
  have h2 : (i 2).val < 4096 := (i 2).isLt
  obtain ⟨t, ht⟩ := row_onto ⟨(i 0).val, h0⟩
  have q0 : win0_6.index t (0 : Fin 3) = (i 0).val := congrFun ht 0
  have q1 : win0_6.index t (1 : Fin 3) = 0 := congrFun ht 1
  have q2 : win0_6.index t (2 : Fin 3) = 0 := congrFun ht 2
  refine ⟨t, flush0_6 t, ?_⟩
  rw [mem_row]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 4096 ≤ (i 2).val ∧ (i 2).val < win0_6.index t (2 : Fin 3) * 4096 + 4096; omega

/-- The output array after the grid has run. -/
theorem final (c : Dev nD) :
    (dats m 0 c).arrAt 6 cfg0.N
      = rows (V m c main_v19) (V m c main_v20) (V m c main_v15) (V m c main_v16) (V m c main_v17) (V m c main_v18) :=
  (dats m 0 c).arrAt_eq_of_cover 6 _ (fun t _ => flushed_row m c t) rows_cover

end Cert.GridValue

end
-- ==== Proof.Minimax.lean ====
/-
  The alternating reduction from the leaves to the roots.

  The leaf values are arranged [16, 8, 8, 8, 8, 8]: root, then the five moves. The root's value is
      max over m1 of min over m2 of max over m3 of min over m4 of max over m5
  of the leaf values, each maximum taken from -∞ and each minimum from +∞. Both programs end with these five reductions,
  so they are stated once, for any witnesses of the shapes' side conditions.
-/
import Idealize.ShloMosaic.PureOps.Ideal

noncomputable section

namespace Cert.Minimax

open Idealize.ShloMosaic

abbrev L6 : Shape := ⟨6, ![16, 8, 8, 8, 8, 8]⟩
abbrev L5 : Shape := ⟨5, ![16, 8, 8, 8, 8]⟩
abbrev L4 : Shape := ⟨4, ![16, 8, 8, 8]⟩
abbrev L3 : Shape := ⟨3, ![16, 8, 8]⟩
abbrev L2 : Shape := ⟨2, ![16, 8]⟩
abbrev L1 : Shape := ⟨1, ![16]⟩
abbrev L0 : Shape := ⟨0, ![]⟩

/-- The five reductions, innermost (the last move, a maximum) first. -/
def backup (h5 : L6.ReducesTo [5] L5) (h4 : L5.ReducesTo [4] L4) (h3 : L4.ReducesTo [3] L3) (h2 : L3.ReducesTo [2] L2)
    (h1 : L2.ReducesTo [1] L1) (h0 : 0 < L0.numel) (leaves : FVec Ideal L6 .f32) : FVec Ideal L1 .f32 :=
  Host.reduce FloatOps.maximumf
    (Host.reduce FloatOps.minimumf
      (Host.reduce FloatOps.maximumf
        (Host.reduce FloatOps.minimumf
          (Host.reduce FloatOps.maximumf leaves (constant (F := Ideal) L0 .f32 0xFF800000#32) h5 h0)
          (constant (F := Ideal) L0 .f32 0x7F800000#32) h4 h0)
        (constant (F := Ideal) L0 .f32 0xFF800000#32) h3 h0)
      (constant (F := Ideal) L0 .f32 0x7F800000#32) h2 h0)
    (constant (F := Ideal) L0 .f32 0xFF800000#32) h1 h0

end Cert.Minimax

end
-- ==== Proof.KernelRun.lean ====
/-
  The kernel program's run, with its result named.

  The host code after the grid views the [128,1,4096] output as [128,4096], then as [16,8,8,8,8,8] — root, then the five
  moves — and backs the leaf values up to the roots by the alternating reduction. The grid's output array is the
  function `rows` of the tables the host code prepared; everything else the run leaves as it found it.
-/
import proofs.«136526_j14585708937680_2_alg».proof.Proof.Gen.KernelIdeal.Frame
import proofs.«136526_j14585708937680_2_alg».proof.Proof.GridValue
import proofs.«136526_j14585708937680_2_alg».proof.Proof.Minimax
import Idealize.ShloMosaic.Lib.StableHlo.Run

set_option maxRecDepth 16384

noncomputable section

namespace Cert.KernelRun

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The leaf values as the grid leaves them: a [128,1,4096] array. -/
abbrev gridOut (c : Dev nD) : S128x1x4096.Idx → EReal :=
  GridValue.rows (V m c main_v19) (V m c main_v20) (V m c main_v15) (V m c main_v16) (V m c main_v17) (V m c main_v18)

/-- The roots' values from the grid's output. -/
def result (c : Dev nD) : FVec Ideal S16 .f32 :=
  Minimax.backup reducesTo_S16x8x8x8x8x8_S16x8x8x8x8_d5 reducesTo_S16x8x8x8x8_S16x8x8x8_d4 reducesTo_S16x8x8x8_S16x8x8_d3
    reducesTo_S16x8x8_S16x8_d2 reducesTo_S16x8_S16_d1 h_S_
    (shapeCast S16x8x8x8x8x8 (shapeCast S128x4096 (gridOut m c) shapeCasts_S128x1x4096_S128x4096)
      shapeCasts_S128x4096_S16x8x8x8x8x8)

/-- The result buffer after the host code that follows the grid. -/
theorem tail_value (c : Dev nD) :
    Pipeline.afterTail₀ cfgs (dats m) 0 (V0 m) [hostOps1] c main_v28 = result m c := by
  have e := (Pipeline.withArrays_arr spec0 launch0.win.arr_inj c (V0 m c) (fun w => (dats m 0 c).arrAt w cfg0.N) 6).trans
    (GridValue.final m c)
  unfold Pipeline.afterTail₀
  show StableHlo.after hostOps1 _ (Proc.devRef .tc main_v28) = _
  after_results
  exact congrArg (fun A : S128x1x4096.Idx → EReal =>
    Minimax.backup reducesTo_S16x8x8x8x8x8_S16x8x8x8x8_d5 reducesTo_S16x8x8x8x8_S16x8x8x8_d4 reducesTo_S16x8x8x8_S16x8x8_d3
      reducesTo_S16x8x8_S16x8_d2 reducesTo_S16x8_S16_d1 h_S_
      (shapeCast S16x8x8x8x8x8 (shapeCast S128x4096 A shapeCasts_S128x1x4096_S128x4096) shapeCasts_S128x4096_S16x8x8x8x8x8)) e

/-- Every weakly fair execution of the kernel program terminates with the result buffer at `result` and the six
    argument arrays as they were. -/
theorem run : θ_run defs (onTc (τ := τ) (main (F := Ideal))) ⟨m, fun _ => 0, ρ⟩ (fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v28 (Pipeline.mem_restRefs_of main_v28 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelRun

end
-- ==== Proof.RefResult.lean ====
/-
  The reference program's result: the alternating reduction of its 16·8⁵ leaf values, which it holds as a flat vector
  and views as [16,8,8,8,8,8] — root, then the five moves.
-/
import proofs.«136526_j14585708937680_2_alg».proof.Proof.Gen.ReferenceIdeal.Read
import proofs.«136526_j14585708937680_2_alg».proof.Proof.Minimax

noncomputable section

namespace Cert.RefResult

open Idealize.ShloMosaic Cert.ReferenceIdeal Cert.ReferenceIdeal.Gen

/-- The last stage of the reference is the backing-up of the reshaped flat leaf vector. -/
theorem result_eq (x0 : (⟨S16x8x8, .f32⟩ : BufTy).Contents (Elt Ideal)) (x1 : (⟨S8x8x8, .f32⟩ : BufTy).Contents (Elt Ideal))
    (x2 : (⟨S64x256, .f32⟩ : BufTy).Contents (Elt Ideal)) (x3 : (⟨S256, .f32⟩ : BufTy).Contents (Elt Ideal))
    (x4 : (⟨S256x1, .f32⟩ : BufTy).Contents (Elt Ideal)) (x5 : (⟨S1, .f32⟩ : BufTy).Contents (Elt Ideal)) :
    Read.val_main_v46 (F := Ideal) x0 x1 x2 x3 x4 x5
      = Minimax.backup reducesTo_S16x8x8x8x8x8_S16x8x8x8x8_d5 reducesTo_S16x8x8x8x8_S16x8x8x8_d4
          reducesTo_S16x8x8x8_S16x8x8_d3 reducesTo_S16x8x8_S16x8_d2 reducesTo_S16x8_S16_d1 h_S_
          (shapeCast S16x8x8x8x8x8 (Read.val_main_v40 (F := Ideal) x0 x1 x2 x3 x4 x5) shapeCasts_S524288_S16x8x8x8x8x8) := by
  unfold Read.val_main_v46 Read.val_main_v45 Read.val_main_v44 Read.val_main_v43 Read.val_main_v42 Read.val_main_v41
    Read.val_main_cst Read.val_main_cst_0 Read.val_main_cst_1 Read.val_main_cst_2 Read.val_main_cst_3 Minimax.backup
  rfl

end Cert.RefResult

end
-- ==== Proof.LeafSpec.lean ====
/-
  The value of one leaf of the game tree, as a function of the six argument arrays.

  A leaf is reached from root board b by five moves m1 … m5; its row-major number among the 16·8⁵ leaves is
  n = ((((b·8 + m1)·8 + m2)·8 + m3)·8 + m4)·8 + m5. Boards are 8×8 and are read flattened row by row to 64 squares.

  Two spellings of the hidden layer's pre-activation at unit j:
    * leaf board first:   Σ_k (((((x b k + d m1 k) + d m2 k) + d m3 k) + d m4 k) + d m5 k) · W1 k j + b1 j
    * projections first:  (((P d m2 j + P d m3 j) + (P d m4 j + P d m5 j)) + P x b j) + P d m1 j) + b1 j,
      where P y a j = Σ_k y a k · W1 k j.
  They agree when every entry is a real number (the product distributes over the six-term sum, and a finite sum of sums
  is the sum of the sums); on the extended reals in general they need not.

  The leaf's value is Σ_j tanh(pre j) · W2 j + b2.
-/
import Idealize.ShloMosaic.PureOps.Ideal
import Idealize.ShloMosaic.Lib.ValueIdx

noncomputable section

open scoped BigOperators

namespace Cert.LeafSpec

open Idealize.ShloMosaic Idealize.ShloMosaic.ValueIdx

/-- A stack of n boards of 8×8 squares, board i read at its k-th square in row-major order. -/
def boards {n : ℕ} (a : (⟨3, ![n, 8, 8]⟩ : Shape).Idx → EReal) (i : Fin n) (k : Fin 64) : EReal :=
  a (ix3 i ⟨k.val / 8, by have := k.isLt; omega⟩ ⟨k.val % 8, by omega⟩)

/-- The root board of leaf number n. -/
def root (n : Fin 524288) : Fin 16 := ⟨n.val / 32768, by have := n.isLt; omega⟩
/-- The first … fifth move on the way to leaf number n. -/
def mv1 (n : Fin 524288) : Fin 8 := ⟨n.val / 4096 % 8, by omega⟩
def mv2 (n : Fin 524288) : Fin 8 := ⟨n.val / 512 % 8, by omega⟩
def mv3 (n : Fin 524288) : Fin 8 := ⟨n.val / 64 % 8, by omega⟩
def mv4 (n : Fin 524288) : Fin 8 := ⟨n.val / 8 % 8, by omega⟩
def mv5 (n : Fin 524288) : Fin 8 := ⟨n.val % 8, by omega⟩

/-- The projection of board a of the stack y on hidden unit j. -/
def proj {n : ℕ} (y : Fin n → Fin 64 → EReal) (W1 : Fin 64 → Fin 256 → EReal) (a : Fin n) (j : Fin 256) : EReal :=
  ∑ k : Fin 64, y a k * W1 k j

/-- Pre-activation, the leaf's board built first (moves added in order) and then projected. -/
def preBoard (x : Fin 16 → Fin 64 → EReal) (d : Fin 8 → Fin 64 → EReal) (W1 : Fin 64 → Fin 256 → EReal) (b1 : Fin 256 → EReal)
    (b : Fin 16) (m1 m2 m3 m4 m5 : Fin 8) (j : Fin 256) : EReal :=
  (∑ k : Fin 64, (((((x b k + d m1 k) + d m2 k) + d m3 k) + d m4 k) + d m5 k) * W1 k j) + b1 j

/-- Pre-activation, the root and the moves projected first and the projections added: the last four moves as a
    pair of pairs, then the root, then the first move, then the bias. -/
def preProj (x : Fin 16 → Fin 64 → EReal) (d : Fin 8 → Fin 64 → EReal) (W1 : Fin 64 → Fin 256 → EReal) (b1 : Fin 256 → EReal)
    (b : Fin 16) (m1 m2 m3 m4 m5 : Fin 8) (j : Fin 256) : EReal :=
  ((((proj d W1 m2 j + proj d W1 m3 j) + (proj d W1 m4 j + proj d W1 m5 j)) + proj x W1 b j) + proj d W1 m1 j) + b1 j

/-- The evaluator's output from the pre-activations of the 256 hidden units. -/
def value (pre : Fin 256 → EReal) (W2 : Fin 256 → EReal) (b2 : EReal) : EReal :=
  (∑ j : Fin 256, Ideal.tanh (pre j) * W2 j) + b2

/-- The value of leaf number n, board first. -/
def leafBoard (x : Fin 16 → Fin 64 → EReal) (d : Fin 8 → Fin 64 → EReal) (W1 : Fin 64 → Fin 256 → EReal) (b1 : Fin 256 → EReal)
    (W2 : Fin 256 → EReal) (b2 : EReal) (n : Fin 524288) : EReal :=
  value (preBoard x d W1 b1 (root n) (mv1 n) (mv2 n) (mv3 n) (mv4 n) (mv5 n)) W2 b2

/-- The value of leaf number n, projections first. -/
def leafProj (x : Fin 16 → Fin 64 → EReal) (d : Fin 8 → Fin 64 → EReal) (W1 : Fin 64 → Fin 256 → EReal) (b1 : Fin 256 → EReal)
    (W2 : Fin 256 → EReal) (b2 : EReal) (n : Fin 524288) : EReal :=
  value (preProj x d W1 b1 (root n) (mv1 n) (mv2 n) (mv3 n) (mv4 n) (mv5 n)) W2 b2

end Cert.LeafSpec

end
-- ==== Proof.LibSumLaw.lean ====
import Mathlib.Data.EReal.Basic
import Mathlib.Algebra.BigOperators.Ring.Finset
import Mathlib.Algebra.BigOperators.Group.Finset.Sigma
import Mathlib.Tactic.Ring

/-!
# Reassociating a double sum of products of finite extended reals

For families `a k`, `x k j`, `w j` of extended reals all of whose entries are real numbers,
`∑ j, (∑ k, a k * x k j) * w j = ∑ k, a k * (∑ j, x k j * w j)`.

On the extended reals multiplication does not distribute over addition at the infinities
(`(⊤ + ⊥) * c` against `⊤ * c + ⊥ * c`), so the statement needs every entry to be real. With real
entries both sides are the coercion of the same real number: distribute, swap the two finite
sums, and reassociate each product.
-/

open scoped BigOperators

namespace Cert.SumLaw

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The law in the reals: distribute, swap the two sums, reassociate the products. -/
theorem real_sum_mul_sum_assoc {K J : ℕ} (a : Fin K → ℝ) (x : Fin K → Fin J → ℝ) (w : Fin J → ℝ) :
    (∑ j : Fin J, (∑ k : Fin K, a k * x k j) * w j) = ∑ k : Fin K, a k * (∑ j : Fin J, x k j * w j) := by
  simp only [Finset.sum_mul, Finset.mul_sum]
  rw [Finset.sum_comm]
  refine Finset.sum_congr rfl fun k _ => Finset.sum_congr rfl fun j _ => ?_
  ring

/-- The law on extended reals whose entries are all real. -/
theorem sum_mul_sum_assoc {K J : ℕ} (a : Fin K → EReal) (x : Fin K → Fin J → EReal) (w : Fin J → EReal)
    (ha : ∀ k, ∃ r : ℝ, a k = (r : EReal)) (hx : ∀ k j, ∃ r : ℝ, x k j = (r : EReal))
    (hw : ∀ j, ∃ r : ℝ, w j = (r : EReal)) :
    (∑ j : Fin J, (∑ k : Fin K, a k * x k j) * w j) = ∑ k : Fin K, a k * (∑ j : Fin J, x k j * w j) := by
  choose a' ha' using ha
  choose x' hx' using hx
  choose w' hw' using hw
  simp only [ha', hx', hw', ← EReal.coe_mul, ← coe_sum]
  rw [real_sum_mul_sum_assoc]

end Cert.SumLaw
-- ==== Proof.RealEntries.lean ====
/-
  Real entries, and the distributive law between the two spellings of the hidden layer's pre-activation.

  Part A: when every entry of the boards, the move boards and the first weight matrix is a real number, the
  pre-activation computed from the leaf's board equals the one computed from the projections: the product
  distributes over the six-term sum, and a finite sum of sums is the sum of the sums. The bias is added last
  on both sides and needs no hypothesis.

  Part B: the precondition says, for each of the six argument arrays, that the conjunction over all entries of
  "|entry| < +∞" is true, and that the six conjunctions are all true. A conjunction that is true has only true
  members; an extended real x with max x (-x) < ⊤ is neither ⊤ nor ⊥, so it is a real number.
-/
import proofs.«136526_j14585708937680_2_alg».proof.Proof.LeafSpec
import proofs.«136526_j14585708937680_2_alg».proof.Proof.LibSumLaw
import proofs.«136526_j14585708937680_2_alg».proof.Pre_finite_inputs
import proofs.«136526_j14585708937680_2_alg».proof.Proof.Gen.Pre_finite_inputs
import Idealize.ShloMosaic.Lib.ReduceAll

noncomputable section

open scoped BigOperators

namespace Cert.RealEntries

/-! ## Part A: the distributive law -/

section Law

open Cert.LeafSpec Cert.SumLaw

/-- The law in the reals: the product distributes over the six-term sum and the sum splits. -/
theorem real_preBoard_eq_preProj (x0 d1 d2 d3 d4 d5 : Fin 64 → ℝ) (w : Fin 64 → ℝ) :
    (∑ k : Fin 64, (((((x0 k + d1 k) + d2 k) + d3 k) + d4 k) + d5 k) * w k)
      = ((((∑ k : Fin 64, d2 k * w k) + (∑ k : Fin 64, d3 k * w k))
          + ((∑ k : Fin 64, d4 k * w k) + (∑ k : Fin 64, d5 k * w k)))
          + (∑ k : Fin 64, x0 k * w k)) + (∑ k : Fin 64, d1 k * w k) := by
  simp only [add_mul, Finset.sum_add_distrib]
  ring

/-- The two spellings of the pre-activation agree when the boards, the moves and the weights are real. -/
theorem preBoard_eq_preProj (x : Fin 16 → Fin 64 → EReal) (d : Fin 8 → Fin 64 → EReal)
    (W1 : Fin 64 → Fin 256 → EReal) (b1 : Fin 256 → EReal)
    (hx : ∀ b k, ∃ r : ℝ, x b k = (r : EReal)) (hd : ∀ a k, ∃ r : ℝ, d a k = (r : EReal))
    (hW : ∀ k j, ∃ r : ℝ, W1 k j = (r : EReal))
    (b : Fin 16) (m1 m2 m3 m4 m5 : Fin 8) (j : Fin 256) :
    preBoard x d W1 b1 b m1 m2 m3 m4 m5 j = preProj x d W1 b1 b m1 m2 m3 m4 m5 j := by
  choose x' hx' using hx
  choose d' hd' using hd
  choose W' hW' using hW
  unfold preBoard preProj proj
  refine congrArg (· + b1 j) ?_
  simp only [hx', hd', hW', ← EReal.coe_mul, ← EReal.coe_add, ← coe_sum]
  rw [real_preBoard_eq_preProj]

/-- The two spellings of a leaf's value agree under the same hypotheses. -/
theorem leafBoard_eq_leafProj (x : Fin 16 → Fin 64 → EReal) (d : Fin 8 → Fin 64 → EReal)
    (W1 : Fin 64 → Fin 256 → EReal) (b1 : Fin 256 → EReal) (W2 : Fin 256 → EReal) (b2 : EReal)
    (hx : ∀ b k, ∃ r : ℝ, x b k = (r : EReal)) (hd : ∀ a k, ∃ r : ℝ, d a k = (r : EReal))
    (hW : ∀ k j, ∃ r : ℝ, W1 k j = (r : EReal)) (n : Fin 524288) :
    leafBoard x d W1 b1 W2 b2 n = leafProj x d W1 b1 W2 b2 n := by
  unfold leafBoard leafProj
  congr 1
  funext j
  exact preBoard_eq_preProj x d W1 b1 hx hd hW _ _ _ _ _ _ j

end Law

/-! ## Part B: under the precondition every entry is a real number -/

section Pre

open Idealize.ShloMosaic

/-- The shape of a scalar has exactly one index. -/
instance subsingleton_scalar_idx : Subsingleton Cert.Pre_finite_inputs.S_.Idx :=
  ⟨fun a b => funext fun d => d.elim0⟩

/-- An extended real whose absolute value is below the pattern of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- One array: if the conjunction over all entries of "|entry| < +∞" is true, every entry is a real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf a)
            (broadcastInDim s ![] hb (constant (F := Ideal) Cert.Pre_finite_inputs.S_ .f32 0x7F800000#32)))
          init hr hu j = 1#1)
    (i : s.Idx) : ∃ r : ℝ, a i = (r : EReal) :=
  real_of_abs_lt_inf (a i) (Host.reduce_andi_all _ init hr hu j e i)

open Cert.Pre_finite_inputs in
/-- Under the precondition every entry of each of the six argument arrays is a real number. -/
theorem real_of_pre (a0 : FVec Ideal S16x8x8 .f32) (a1 : FVec Ideal S8x8x8 .f32) (a2 : FVec Ideal S64x256 .f32)
    (a3 : FVec Ideal S256 .f32) (a4 : FVec Ideal S256x1 .f32) (a5 : FVec Ideal S1 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ _ _ e0, real_of_all a1 _ _ _ _ _ e1, real_of_all a2 _ _ _ _ _ e2,
    real_of_all a3 _ _ _ _ _ e3, real_of_all a4 _ _ _ _ _ e4, real_of_all a5 _ _ _ _ _ e5⟩

end Pre

end Cert.RealEntries

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.KernelTables.lean ====
/-
  The arrays the kernel's host code prepares before its grid runs, read entry by entry as functions of the six
  argument arrays: the two projections of the boards and of the moves' deltas through W1, the table of the 4096
  four-move sums of projected deltas, and the biases and output weights at the shapes the grid's windows want.
-/
import proofs.«136526_j14585708937680_2_alg».proof.Proof.Gen.KernelIdeal.Frame
import proofs.«136526_j14585708937680_2_alg».proof.Proof.LeafSpec
import proofs.«136526_j14585708937680_2_alg».proof.Proof.LibPlainDot
import Idealize.ShloMosaic.Lib.StableHlo.Run
import Idealize.ShloMosaic.Lib.Pipeline.Value
import Idealize.ShloMosaic.Lib.ValueIdx

noncomputable section

open scoped BigOperators

namespace Cert.KernelTables

open Cert.KernelIdeal Cert.KernelIdeal.Gen Idealize.ShloMosaic Idealize.ShloMosaic.TcCoe Idealize.SL.Sem
open Idealize.ShloMosaic.StableHlo Idealize.ShloMosaic.ValueIdx

/-! ## One reshape each: the biases and the output weights -/

/-- A vector of 256 entries reshaped to one row of 256: entry (0, j) is entry j. -/
theorem reshape_256_row (y : S256.Idx → EReal) (h : S256.ShapeCasts S1x256) (j : Fin 256) :
    shapeCast S1x256 y h (ix2 (0 : Fin 1) j) = y (ix1 j) :=
  shapeCast_apply y h _ _ (by
    rw [Shape.rowMajor_val_one, Shape.rowMajor_val_two]
    show j.val = 0 * 256 + j.val
    omega)

/-- A column of 256 entries reshaped to one row of 256: entry (0, j) is entry (j, 0). -/
theorem reshape_col_row (y : S256x1.Idx → EReal) (h : S256x1.ShapeCasts S1x256) (j : Fin 256) :
    shapeCast S1x256 y h (ix2 (0 : Fin 1) j) = y (ix2 j (0 : Fin 1)) :=
  shapeCast_apply y h _ _ (by
    rw [Shape.rowMajor_val_two, Shape.rowMajor_val_two]
    show j.val * 1 + 0 = 0 * 256 + j.val
    omega)

/-- One entry reshaped to a 1×1 array. -/
theorem reshape_one (y : S1.Idx → EReal) (h : S1.ShapeCasts S1x1) :
    shapeCast S1x1 y h (ix2 (0 : Fin 1) (0 : Fin 1)) = y (ix1 (0 : Fin 1)) :=
  shapeCast_apply y h _ _ (by
    rw [Shape.rowMajor_val_one, Shape.rowMajor_val_two]
    show 0 = 0 * 1 + 0
    omega)

/-! ## The projections through W1 -/

/-- Sixteen boards flattened to 64 squares each: square k of board b is the board's entry (k / 8, k % 8). -/
theorem flat16_apply (y : FVec Ideal S16x8x8 .f32) (h : S16x8x8.ShapeCasts S16x64) (b : Fin 16) (k : Fin 64) :
    shapeCast S16x64 y h (ix2 b k) = Cert.LeafSpec.boards y b k := by
  unfold Cert.LeafSpec.boards
  exact shapeCast_apply y h _ _ (by
    rw [Shape.rowMajor_val_three, Shape.rowMajor_val_two]
    have hb := b.isLt
    have hk := k.isLt
    show (b.val * 8 + k.val / 8) * 8 + k.val % 8 = b.val * 64 + k.val
    omega)

/-- The same for the eight deltas. -/
theorem flat8_apply (y : FVec Ideal S8x8x8 .f32) (h : S8x8x8.ShapeCasts S8x64) (a : Fin 8) (k : Fin 64) :
    shapeCast S8x64 y h (ix2 a k) = Cert.LeafSpec.boards y a k := by
  unfold Cert.LeafSpec.boards
  exact shapeCast_apply y h _ _ (by
    rw [Shape.rowMajor_val_three, Shape.rowMajor_val_two]
    have ha := a.isLt
    have hk := k.isLt
    show (a.val * 8 + k.val / 8) * 8 + k.val % 8 = a.val * 64 + k.val
    omega)

/-- The host's product of a 16×64 array with a 64×256 array at (b, j): the sum over the 64 squares. -/
theorem dot16_apply (y : FVec Ideal S16x64 .f32) (w : FVec Ideal S64x256 .f32) (b : Fin 16) (j : Fin 256) :
    Host.dotGeneral dot_S16x64_S64x256_S16x256_1_0_0_1_n_n none y w (ix2 b j) = ∑ k : Fin 64, y (ix2 b k) * w (ix2 k j) :=
  PlainDot.dotGeneral_apply (M := 16) (K := 64) (N := 256) none .single y w b j

/-- The host's product of an 8×64 array with a 64×256 array at (a, j). -/
theorem dot8_apply (y : FVec Ideal S8x64 .f32) (w : FVec Ideal S64x256 .f32) (a : Fin 8) (j : Fin 256) :
    Host.dotGeneral dot_S8x64_S64x256_S8x256_1_0_0_1_n_n none y w (ix2 a j) = ∑ k : Fin 64, y (ix2 a k) * w (ix2 k j) :=
  PlainDot.dotGeneral_apply (M := 8) (K := 64) (N := 256) none .single y w a j

/-- The projected boards: the flattened boards times W1. -/
def projX (y : FVec Ideal S16x8x8 .f32) (w : FVec Ideal S64x256 .f32) : FVec Ideal S16x256 .f32 :=
  Host.dotGeneral dot_S16x64_S64x256_S16x256_1_0_0_1_n_n none (shapeCast S16x64 y Gen.shapeCasts_S16x8x8_S16x64) w

/-- The projected deltas: the flattened deltas times W1. -/
def projD (y : FVec Ideal S8x8x8 .f32) (w : FVec Ideal S64x256 .f32) : FVec Ideal S8x256 .f32 :=
  Host.dotGeneral dot_S8x64_S64x256_S8x256_1_0_0_1_n_n none (shapeCast S8x64 y Gen.shapeCasts_S8x8x8_S8x64) w

theorem projX_apply (y : FVec Ideal S16x8x8 .f32) (w : FVec Ideal S64x256 .f32) (b : Fin 16) (j : Fin 256) :
    projX y w (ix2 b j) = Cert.LeafSpec.proj (Cert.LeafSpec.boards y) (fun k j => w (ix2 k j)) b j := by
  unfold projX Cert.LeafSpec.proj
  rw [dot16_apply]
  exact Finset.sum_congr rfl fun k _ => by rw [flat16_apply]

theorem projD_apply (y : FVec Ideal S8x8x8 .f32) (w : FVec Ideal S64x256 .f32) (a : Fin 8) (j : Fin 256) :
    projD y w (ix2 a j) = Cert.LeafSpec.proj (Cert.LeafSpec.boards y) (fun k j => w (ix2 k j)) a j := by
  unfold projD Cert.LeafSpec.proj
  rw [dot8_apply]
  exact Finset.sum_congr rfl fun k _ => by rw [flat8_apply]

/-- A 16×256 array given a middle axis of extent one. -/
theorem unit_axis16 (y : FVec Ideal S16x256 .f32) (h : S16x256.ShapeCasts S16x1x256) (b : Fin 16) (j : Fin 256) :
    shapeCast S16x1x256 y h (ix3 b (0 : Fin 1) j) = y (ix2 b j) :=
  shapeCast_apply y h _ _ (by
    rw [Shape.rowMajor_val_two, Shape.rowMajor_val_three]
    show b.val * 256 + j.val = (b.val * 1 + 0) * 256 + j.val
    omega)

/-- An 8×256 array given a middle axis of extent one. -/
theorem unit_axis8 (y : FVec Ideal S8x256 .f32) (h : S8x256.ShapeCasts S8x1x256) (a : Fin 8) (j : Fin 256) :
    shapeCast S8x1x256 y h (ix3 a (0 : Fin 1) j) = y (ix2 a j) :=
  shapeCast_apply y h _ _ (by
    rw [Shape.rowMajor_val_two, Shape.rowMajor_val_three]
    show a.val * 256 + j.val = (a.val * 1 + 0) * 256 + j.val
    omega)

/-! ## The table of sums: two rounds of "every row plus every row"

Round one takes the 8 rows of the projected deltas to the 64 rows numbered a·8 + b holding row a plus row b; round two
takes those 64 rows to the 4096 rows numbered p·64 + q holding row p plus row q. -/

/-- Rows placed along the first of two row axes, the middle axis of extent one. -/
theorem bcast8_mid (y : FVec Ideal S8x256 .f32) (a : Fin 8) (j : Fin 256) :
    broadcastInDim S8x1x256 ![0, 2] Gen.bcast_S8x256_S8x1x256_0_2 y (ix3 a (0 : Fin 1) j) = y (ix2 a j) :=
  broadcastInDim_apply _ Gen.bcast_S8x256_S8x1x256_0_2 y _ _ (fun d => match d with
    | ⟨0, _⟩ => by show a.val = if (8 : Nat) = 1 then 0 else a.val; rw [if_neg (by decide)]
    | ⟨1, _⟩ => by show j.val = if (256 : Nat) = 1 then 0 else j.val; rw [if_neg (by decide)])

/-- Rows placed along the second of two row axes, the leading axis of extent one. -/
theorem bcast8_lead (y : FVec Ideal S8x256 .f32) (b : Fin 8) (j : Fin 256) :
    broadcastInDim S1x8x256 ![1, 2] Gen.bcast_S8x256_S1x8x256_1_2 y (ix3 (0 : Fin 1) b j) = y (ix2 b j) :=
  broadcastInDim_apply _ Gen.bcast_S8x256_S1x8x256_1_2 y _ _ (fun d => match d with
    | ⟨0, _⟩ => by show b.val = if (8 : Nat) = 1 then 0 else b.val; rw [if_neg (by decide)]
    | ⟨1, _⟩ => by show j.val = if (256 : Nat) = 1 then 0 else j.val; rw [if_neg (by decide)])

/-- The middle axis of extent one repeated eight times. -/
theorem bcast8_a (z : FVec Ideal S8x1x256 .f32) (a b : Fin 8) (j : Fin 256) :
    broadcastInDim S8x8x256 ![0, 1, 2] Gen.bcast_S8x1x256_S8x8x256_0_1_2 z (ix3 a b j) = z (ix3 a (0 : Fin 1) j) :=
  broadcastInDim_apply _ Gen.bcast_S8x1x256_S8x8x256_0_1_2 z _ _ (fun d => match d with
    | ⟨0, _⟩ => by show a.val = if (8 : Nat) = 1 then 0 else a.val; rw [if_neg (by decide)]
    | ⟨1, _⟩ => by show (0 : Nat) = if (1 : Nat) = 1 then 0 else b.val; rw [if_pos rfl]
    | ⟨2, _⟩ => by show j.val = if (256 : Nat) = 1 then 0 else j.val; rw [if_neg (by decide)])

/-- The leading axis of extent one repeated eight times. -/
theorem bcast8_b (z : FVec Ideal S1x8x256 .f32) (a b : Fin 8) (j : Fin 256) :
    broadcastInDim S8x8x256 ![0, 1, 2] Gen.bcast_S1x8x256_S8x8x256_0_1_2 z (ix3 a b j) = z (ix3 (0 : Fin 1) b j) :=
  broadcastInDim_apply _ Gen.bcast_S1x8x256_S8x8x256_0_1_2 z _ _ (fun d => match d with
    | ⟨0, _⟩ => by show (0 : Nat) = if (1 : Nat) = 1 then 0 else a.val; rw [if_pos rfl]
    | ⟨1, _⟩ => by show b.val = if (8 : Nat) = 1 then 0 else b.val; rw [if_neg (by decide)]
    | ⟨2, _⟩ => by show j.val = if (256 : Nat) = 1 then 0 else j.val; rw [if_neg (by decide)])

/-- Round one: entry (a, b, j) is row a plus row b at j. -/
def pair8 (y : FVec Ideal S8x256 .f32) : FVec Ideal S8x8x256 .f32 :=
  addf (broadcastInDim S8x8x256 ![0, 1, 2] Gen.bcast_S8x1x256_S8x8x256_0_1_2
          (broadcastInDim S8x1x256 ![0, 2] Gen.bcast_S8x256_S8x1x256_0_2 y))
       (broadcastInDim S8x8x256 ![0, 1, 2] Gen.bcast_S1x8x256_S8x8x256_0_1_2
          (broadcastInDim S1x8x256 ![1, 2] Gen.bcast_S8x256_S1x8x256_1_2 y))

theorem pair8_apply (y : FVec Ideal S8x256 .f32) (a b : Fin 8) (j : Fin 256) :
    pair8 y (ix3 a b j) = y (ix2 a j) + y (ix2 b j) := by
  unfold pair8
  rw [ValueIdx.addf_apply, bcast8_a, bcast8_b, bcast8_mid, bcast8_lead]

theorem bcast64_mid (y : FVec Ideal S64x256 .f32) (p : Fin 64) (j : Fin 256) :
    broadcastInDim S64x1x256 ![0, 2] Gen.bcast_S64x256_S64x1x256_0_2 y (ix3 p (0 : Fin 1) j) = y (ix2 p j) :=
  broadcastInDim_apply _ Gen.bcast_S64x256_S64x1x256_0_2 y _ _ (fun d => match d with
    | ⟨0, _⟩ => by show p.val = if (64 : Nat) = 1 then 0 else p.val; rw [if_neg (by decide)]
    | ⟨1, _⟩ => by show j.val = if (256 : Nat) = 1 then 0 else j.val; rw [if_neg (by decide)])

theorem bcast64_lead (y : FVec Ideal S64x256 .f32) (q : Fin 64) (j : Fin 256) :
    broadcastInDim S1x64x256 ![1, 2] Gen.bcast_S64x256_S1x64x256_1_2 y (ix3 (0 : Fin 1) q j) = y (ix2 q j) :=
  broadcastInDim_apply _ Gen.bcast_S64x256_S1x64x256_1_2 y _ _ (fun d => match d with
    | ⟨0, _⟩ => by show q.val = if (64 : Nat) = 1 then 0 else q.val; rw [if_neg (by decide)]
    | ⟨1, _⟩ => by show j.val = if (256 : Nat) = 1 then 0 else j.val; rw [if_neg (by decide)])

theorem bcast64_a (z : FVec Ideal S64x1x256 .f32) (p q : Fin 64) (j : Fin 256) :
    broadcastInDim S64x64x256 ![0, 1, 2] Gen.bcast_S64x1x256_S64x64x256_0_1_2 z (ix3 p q j) = z (ix3 p (0 : Fin 1) j) :=
  broadcastInDim_apply _ Gen.bcast_S64x1x256_S64x64x256_0_1_2 z _ _ (fun d => match d with
    | ⟨0, _⟩ => by show p.val = if (64 : Nat) = 1 then 0 else p.val; rw [if_neg (by decide)]
    | ⟨1, _⟩ => by show (0 : Nat) = if (1 : Nat) = 1 then 0 else q.val; rw [if_pos rfl]
    | ⟨2, _⟩ => by show j.val = if (256 : Nat) = 1 then 0 else j.val; rw [if_neg (by decide)])

theorem bcast64_b (z : FVec Ideal S1x64x256 .f32) (p q : Fin 64) (j : Fin 256) :
    broadcastInDim S64x64x256 ![0, 1, 2] Gen.bcast_S1x64x256_S64x64x256_0_1_2 z (ix3 p q j) = z (ix3 (0 : Fin 1) q j) :=
  broadcastInDim_apply _ Gen.bcast_S1x64x256_S64x64x256_0_1_2 z _ _ (fun d => match d with
    | ⟨0, _⟩ => by show (0 : Nat) = if (1 : Nat) = 1 then 0 else p.val; rw [if_pos rfl]
    | ⟨1, _⟩ => by show q.val = if (64 : Nat) = 1 then 0 else q.val; rw [if_neg (by decide)]
    | ⟨2, _⟩ => by show j.val = if (256 : Nat) = 1 then 0 else j.val; rw [if_neg (by decide)])

/-- Round two: entry (p, q, j) is row p plus row q at j. -/
def pair64 (y : FVec Ideal S64x256 .f32) : FVec Ideal S64x64x256 .f32 :=
  addf (broadcastInDim S64x64x256 ![0, 1, 2] Gen.bcast_S64x1x256_S64x64x256_0_1_2
          (broadcastInDim S64x1x256 ![0, 2] Gen.bcast_S64x256_S64x1x256_0_2 y))
       (broadcastInDim S64x64x256 ![0, 1, 2] Gen.bcast_S1x64x256_S64x64x256_0_1_2
          (broadcastInDim S1x64x256 ![1, 2] Gen.bcast_S64x256_S1x64x256_1_2 y))

theorem pair64_apply (y : FVec Ideal S64x256 .f32) (p q : Fin 64) (j : Fin 256) :
    pair64 y (ix3 p q j) = y (ix2 p j) + y (ix2 q j) := by
  unfold pair64
  rw [ValueIdx.addf_apply, bcast64_a, bcast64_b, bcast64_mid, bcast64_lead]

/-- The two row axes of round one merged: row a·8 + b is entry (a, b). -/
theorem fold8 (z : FVec Ideal S8x8x256 .f32) (h : S8x8x256.ShapeCasts S64x256) (p : Fin 64) (a b : Fin 8) (j : Fin 256)
    (hp : p.val = a.val * 8 + b.val) : shapeCast S64x256 z h (ix2 p j) = z (ix3 a b j) :=
  shapeCast_apply z h _ _ (by
    rw [Shape.rowMajor_val_three, Shape.rowMajor_val_two]
    show (a.val * 8 + b.val) * 256 + j.val = p.val * 256 + j.val
    rw [hp])

/-- The two row axes of round two merged: row p·64 + q is entry (p, q). -/
theorem fold64 (z : FVec Ideal S64x64x256 .f32) (h : S64x64x256.ShapeCasts S4096x256) (r : Fin 4096) (p q : Fin 64) (j : Fin 256)
    (hr : r.val = p.val * 64 + q.val) : shapeCast S4096x256 z h (ix2 r j) = z (ix3 p q j) :=
  shapeCast_apply z h _ _ (by
    rw [Shape.rowMajor_val_three, Shape.rowMajor_val_two]
    show (p.val * 64 + q.val) * 256 + j.val = r.val * 256 + j.val
    rw [hr])

/-- The table the two rounds build from an 8-row array. -/
def table (y : FVec Ideal S8x256 .f32) : FVec Ideal S4096x256 .f32 :=
  shapeCast S4096x256 (pair64 (shapeCast S64x256 (pair8 y) Gen.shapeCasts_S8x8x256_S64x256)) Gen.shapeCasts_S64x64x256_S4096x256

/-- Row ((m2·8 + m3)·8 + m4)·8 + m5 of the table is (row m2 + row m3) + (row m4 + row m5). -/
theorem table_apply (y : FVec Ideal S8x256 .f32) (r : Fin 4096) (m2 m3 m4 m5 : Fin 8) (j : Fin 256)
    (hr : r.val = ((m2.val * 8 + m3.val) * 8 + m4.val) * 8 + m5.val) :
    table y (ix2 r j) = (y (ix2 m2 j) + y (ix2 m3 j)) + (y (ix2 m4 j) + y (ix2 m5 j)) := by
  have h2 := m2.isLt
  have h3 := m3.isLt
  have h4 := m4.isLt
  have h5 := m5.isLt
  unfold table
  rw [fold64 _ _ r ⟨m2.val * 8 + m3.val, by omega⟩ ⟨m4.val * 8 + m5.val, by omega⟩ j (by show r.val = (m2.val * 8 + m3.val) * 64 + (m4.val * 8 + m5.val); omega),
    pair64_apply,
    fold8 _ _ ⟨m2.val * 8 + m3.val, by omega⟩ m2 m3 j rfl,
    fold8 _ _ ⟨m4.val * 8 + m5.val, by omega⟩ m4 m5 j rfl,
    pair8_apply, pair8_apply]

/-! ## The arrays as the grid finds them -/

variable (m : (ℓ : Loc nD τ sig) → Buf (Elt Ideal) ℓ) (c : Dev nD)

theorem V_main_v16_eq :
    (Gen.V (F := Ideal) m c main_v16 : S1x256.Idx → EReal)
      = shapeCast S1x256 (m ((c : Thread nD τ).loc main_arg3) : S256.Idx → EReal) Gen.shapeCasts_S256_S1x256 := by
  show StableHlo.after hostOps0 (fun b => m (c, b)) (Proc.devRef .tc main_v16) = _
  after_results
  rfl

theorem V_main_v17_eq :
    (Gen.V (F := Ideal) m c main_v17 : S1x256.Idx → EReal)
      = shapeCast S1x256 (m ((c : Thread nD τ).loc main_arg4) : S256x1.Idx → EReal) Gen.shapeCasts_S256x1_S1x256 := by
  show StableHlo.after hostOps0 (fun b => m (c, b)) (Proc.devRef .tc main_v17) = _
  after_results
  rfl

theorem V_main_v18_eq :
    (Gen.V (F := Ideal) m c main_v18 : S1x1.Idx → EReal)
      = shapeCast S1x1 (m ((c : Thread nD τ).loc main_arg5) : S1.Idx → EReal) Gen.shapeCasts_S1_S1x1 := by
  show StableHlo.after hostOps0 (fun b => m (c, b)) (Proc.devRef .tc main_v18) = _
  after_results
  rfl

theorem V_main_v19_eq :
    (Gen.V (F := Ideal) m c main_v19 : S16x1x256.Idx → EReal)
      = shapeCast S16x1x256 (projX (m ((c : Thread nD τ).loc main_arg0)) (m ((c : Thread nD τ).loc main_arg2)))
          Gen.shapeCasts_S16x256_S16x1x256 := by
  show StableHlo.after hostOps0 (fun b => m (c, b)) (Proc.devRef .tc main_v19) = _
  after_results
  rfl

theorem V_main_v20_eq :
    (Gen.V (F := Ideal) m c main_v20 : S8x1x256.Idx → EReal)
      = shapeCast S8x1x256 (projD (m ((c : Thread nD τ).loc main_arg1)) (m ((c : Thread nD τ).loc main_arg2)))
          Gen.shapeCasts_S8x256_S8x1x256 := by
  show StableHlo.after hostOps0 (fun b => m (c, b)) (Proc.devRef .tc main_v20) = _
  after_results
  rfl

theorem V_main_v15_eq :
    (Gen.V (F := Ideal) m c main_v15 : S4096x256.Idx → EReal)
      = table (projD (m ((c : Thread nD τ).loc main_arg1)) (m ((c : Thread nD τ).loc main_arg2))) := by
  show StableHlo.after hostOps0 (fun b => m (c, b)) (Proc.devRef .tc main_v15) = _
  after_results
  rfl

/-- The first-layer bias as the grid finds it: one row of 256. -/
theorem main_v16_apply (j : Fin 256) :
    Gen.V (F := Ideal) m c main_v16 (ix2 (0 : Fin 1) j) = m ((c : Thread nD τ).loc main_arg3) (ix1 j) := by
  rw [V_main_v16_eq]
  exact reshape_256_row _ _ j

/-- The output weights as the grid finds them: the column laid as one row of 256. -/
theorem main_v17_apply (j : Fin 256) :
    Gen.V (F := Ideal) m c main_v17 (ix2 (0 : Fin 1) j) = m ((c : Thread nD τ).loc main_arg4) (ix2 j (0 : Fin 1)) := by
  rw [V_main_v17_eq]
  exact reshape_col_row _ _ j

/-- The output bias as the grid finds it: a 1×1 array. -/
theorem main_v18_apply :
    Gen.V (F := Ideal) m c main_v18 (ix2 (0 : Fin 1) (0 : Fin 1)) = m ((c : Thread nD τ).loc main_arg5) (ix1 (0 : Fin 1)) := by
  rw [V_main_v18_eq]
  exact reshape_one _ _

/-- The projected boards as the grid finds them: board b, unit j. -/
theorem main_v19_apply (b : Fin 16) (j : Fin 256) :
    Gen.V (F := Ideal) m c main_v19 (ix3 b (0 : Fin 1) j)
      = Cert.LeafSpec.proj (Cert.LeafSpec.boards (m ((c : Thread nD τ).loc main_arg0)))
          (fun k j => m ((c : Thread nD τ).loc main_arg2) (ix2 k j)) b j := by
  rw [V_main_v19_eq, unit_axis16, projX_apply]

/-- The projected deltas as the grid finds them: move a, unit j. -/
theorem main_v20_apply (a : Fin 8) (j : Fin 256) :
    Gen.V (F := Ideal) m c main_v20 (ix3 a (0 : Fin 1) j)
      = Cert.LeafSpec.proj (Cert.LeafSpec.boards (m ((c : Thread nD τ).loc main_arg1)))
          (fun k j => m ((c : Thread nD τ).loc main_arg2) (ix2 k j)) a j := by
  rw [V_main_v20_eq, unit_axis8, projD_apply]

/-- The table as the grid finds it: row r, whose base-8 digits are the last four moves m2 m3 m4 m5, holds at unit j
    the sum of the four moves' projected deltas, paired (m2 + m3) + (m4 + m5). -/
theorem main_v15_apply (r : Fin 4096) (j : Fin 256) :
    Gen.V (F := Ideal) m c main_v15 (ix2 r j)
      = (Cert.LeafSpec.proj (Cert.LeafSpec.boards (m ((c : Thread nD τ).loc main_arg1)))
            (fun k j => m ((c : Thread nD τ).loc main_arg2) (ix2 k j)) ⟨r.val / 512, by have := r.isLt; omega⟩ j
          + Cert.LeafSpec.proj (Cert.LeafSpec.boards (m ((c : Thread nD τ).loc main_arg1)))
            (fun k j => m ((c : Thread nD τ).loc main_arg2) (ix2 k j)) ⟨r.val / 64 % 8, by omega⟩ j)
        + (Cert.LeafSpec.proj (Cert.LeafSpec.boards (m ((c : Thread nD τ).loc main_arg1)))
            (fun k j => m ((c : Thread nD τ).loc main_arg2) (ix2 k j)) ⟨r.val / 8 % 8, by omega⟩ j
          + Cert.LeafSpec.proj (Cert.LeafSpec.boards (m ((c : Thread nD τ).loc main_arg1)))
            (fun k j => m ((c : Thread nD τ).loc main_arg2) (ix2 k j)) ⟨r.val % 8, by omega⟩ j) := by
  have hr := r.isLt
  rw [V_main_v15_eq,
    table_apply _ r ⟨r.val / 512, by omega⟩ ⟨r.val / 64 % 8, by omega⟩ ⟨r.val / 8 % 8, by omega⟩ ⟨r.val % 8, by omega⟩ j
      (by show r.val = ((r.val / 512 * 8 + r.val / 64 % 8) * 8 + r.val / 8 % 8) * 8 + r.val % 8; omega),
    projD_apply, projD_apply, projD_apply, projD_apply]

end Cert.KernelTables

end
-- ==== Proof.LeafRows.lean ====
/-
  The grid's output, read at the leaf's position, is the leaf's value with the projections taken first.

  Leaf number n sits in row n / 4096 and column n % 4096 of the [128, 1, 4096] output. The row is b·8 + m1, so its
  quotient and remainder by 8 are the root and the first move; the column is ((m2·8 + m3)·8 + m4)·8 + m5, so its
  base-8 digits are the last four moves. With the table holding the last four moves' projections added as a pair of
  pairs, the entry is Σ_j tanh(((table + root's projection) + first move's projection) + bias) · weight + bias.
-/
import proofs.«136526_j14585708937680_2_alg».proof.Proof.GridValue
import proofs.«136526_j14585708937680_2_alg».proof.Proof.LeafSpec

noncomputable section

open scoped BigOperators

namespace Cert.LeafRows

open Idealize.ShloMosaic Idealize.ShloMosaic.ValueIdx
open Cert.KernelIdeal Cert.LeafSpec

/-- The six base-8 digits of a leaf number below 16·8⁵, read from its quotient and remainder by 4096 = 8⁴. -/
theorem digits (n : ℕ) (hn : n < 524288) :
    n / 4096 / 8 = n / 32768 ∧ n / 4096 % 8 = n / 4096 % 8 ∧ n % 4096 / 512 = n / 512 % 8
      ∧ n % 4096 / 64 % 8 = n / 64 % 8 ∧ n % 4096 / 8 % 8 = n / 8 % 8 ∧ n % 4096 % 8 = n % 8 := by
  omega

/-- Row n / 4096, column n % 4096 of the grid's output is the value of leaf number n, projections first, once the
    table holds the last four moves' projections added as a pair of pairs and the other arrays hold the roots'
    projections, the moves' projections, the bias, the output weights and the output bias. -/
theorem rows_eq_leafProj (XW : S16x1x256.Idx → EReal) (DW : S8x1x256.Idx → EReal) (T : S4096x256.Idx → EReal)
    (B1 W : S1x256.Idx → EReal) (C : S1x1.Idx → EReal)
    (x : Fin 16 → Fin 64 → EReal) (d : Fin 8 → Fin 64 → EReal) (W1 : Fin 64 → Fin 256 → EReal)
    (b1 W2 : Fin 256 → EReal) (b2 : EReal)
    (hT : ∀ (r : Fin 4096) (j : Fin 256), T (ix2 r j)
      = (proj d W1 (⟨r.val / 512, by have := r.isLt; omega⟩ : Fin 8) j + proj d W1 (⟨r.val / 64 % 8, by omega⟩ : Fin 8) j)
        + (proj d W1 (⟨r.val / 8 % 8, by omega⟩ : Fin 8) j + proj d W1 (⟨r.val % 8, by omega⟩ : Fin 8) j))
    (hXW : ∀ (b : Fin 16) (j : Fin 256), XW (ix3 b (0 : Fin 1) j) = proj x W1 b j)
    (hDW : ∀ (a : Fin 8) (j : Fin 256), DW (ix3 a (0 : Fin 1) j) = proj d W1 a j)
    (hB1 : ∀ j : Fin 256, B1 (ix2 (0 : Fin 1) j) = b1 j)
    (hW : ∀ j : Fin 256, W (ix2 (0 : Fin 1) j) = W2 j)
    (hC : C (ix2 (0 : Fin 1) (0 : Fin 1)) = b2) (n : Fin 524288) :
    Cert.GridValue.rows XW DW T B1 W C
        (ix3 (⟨n.val / 4096, by have := n.isLt; omega⟩ : Fin 128) (0 : Fin 1) (⟨n.val % 4096, by omega⟩ : Fin 4096))
      = leafProj x d W1 b1 W2 b2 n := by
  have hn := n.isLt
  obtain ⟨e0, e1, e2, e3, e4, e5⟩ := digits n.val hn
  have q0 : (⟨n.val / 4096 / 8, by omega⟩ : Fin 16) = root n := Fin.ext e0
  have q1 : (⟨n.val / 4096 % 8, by omega⟩ : Fin 8) = mv1 n := Fin.ext e1
  have q2 : (⟨n.val % 4096 / 512, by omega⟩ : Fin 8) = mv2 n := Fin.ext e2
  have q3 : (⟨n.val % 4096 / 64 % 8, by omega⟩ : Fin 8) = mv3 n := Fin.ext e3
  have q4 : (⟨n.val % 4096 / 8 % 8, by omega⟩ : Fin 8) = mv4 n := Fin.ext e4
  have q5 : (⟨n.val % 4096 % 8, by omega⟩ : Fin 8) = mv5 n := Fin.ext e5
  unfold leafProj value preProj
  rw [← q0, ← q1, ← q2, ← q3, ← q4, ← q5]
  unfold Cert.GridValue.rows
  rw [hC]
  refine congrArg (· + b2) (Finset.sum_congr rfl fun j _ => ?_)
  rw [hW, hB1, hXW, hDW, hT]

end Cert.LeafRows

end
-- ==== Proof.LibCastVia.lean ====
import Idealize.ShloMosaic.Lib.Pipeline.Value
import Idealize.ShloMosaic.Lib.ValueIdx

/-!
# Reshapes in a row, and a flattened [a, 1, c] array read at a position

A reshape keeps the elements in row-major order and only renames their indices, so reshaping twice is reshaping
once to the last shape. An array of shape [a, 1, c] flattened to a · c entries has, at position l, the entry with
coordinates (l / c, 0, l % c): the row-major position of (p, 0, q) is p · c + q.
-/

namespace Idealize.ShloMosaic.CastVia

open Idealize.ShloMosaic Idealize.ShloMosaic.ValueIdx

variable {α : Type}

/-- Two reshapes in a row are one: reshaping to `t` and then to `u` is reshaping to `u` directly, because each
    reshape matches indices by row-major position. -/
theorem shapeCast_via {s t u : Shape} (v : s.Idx → α) (h₁ : s.ShapeCasts t) (h₂ : t.ShapeCasts u)
    (h₃ : s.ShapeCasts u) : shapeCast u (shapeCast t v h₁) h₂ = shapeCast u v h₃ :=
  funext fun i => congrArg v (Shape.reshapeEquiv_reshapeEquiv h₁ h₂ i)

/-- An array of shape [a, 1, c] flattened to one axis of a · c entries reads, at position l, the entry with
    coordinates (l / c, 0, l % c): that entry's row-major position is (l / c) · c + l % c = l. -/
theorem shapeCast_a1c_flat_apply {a c : ℕ} (hc : 0 < c) (v : (⟨3, ![a, 1, c]⟩ : Shape).Idx → α)
    (h : (⟨3, ![a, 1, c]⟩ : Shape).ShapeCasts ⟨1, ![a * c]⟩) (l : Fin (a * c)) :
    shapeCast ⟨1, ![a * c]⟩ v h (ix1 l)
      = v (ix3 (⟨l.val / c, Nat.div_lt_of_lt_mul (lt_of_lt_of_eq l.isLt (Nat.mul_comm a c))⟩ : Fin a) (0 : Fin 1)
            (⟨l.val % c, Nat.mod_lt _ hc⟩ : Fin c)) := by
  refine shapeCast_apply v h _ _ ?_
  rw [Shape.rowMajor_val_three, Shape.rowMajor_val_one]
  show (l.val / c * 1 + 0) * c + l.val % c = l.val
  rw [Nat.mul_one, Nat.add_zero, Nat.mul_comm]
  exact Nat.div_add_mod l.val c

/-- The same at a = 128 and c = 4096, the product written as the numeral 524288: position l of the flattened
    array is the entry (l / 4096, 0, l % 4096). -/
theorem shapeCast_128x1x4096_flat_apply (v : (⟨3, ![128, 1, 4096]⟩ : Shape).Idx → α)
    (h : (⟨3, ![128, 1, 4096]⟩ : Shape).ShapeCasts ⟨1, ![524288]⟩) (l : Fin 524288) :
    shapeCast ⟨1, ![524288]⟩ v h (ix1 l)
      = v (ix3 (⟨l.val / 4096, by have := l.isLt; omega⟩ : Fin 128) (0 : Fin 1)
            (⟨l.val % 4096, by omega⟩ : Fin 4096)) := by
  refine shapeCast_apply v h _ _ ?_
  rw [Shape.rowMajor_val_three, Shape.rowMajor_val_one]
  show (l.val / 4096 * 1 + 0) * 4096 + l.val % 4096 = l.val
  omega

end Idealize.ShloMosaic.CastVia
-- ==== Proof.KernelLeaves.lean ====
/-
  The kernel's side of the join: the array its grid leaves, flattened, holds at position n the value of leaf
  number n computed from the six argument arrays with the projections taken first; and so does the rank-6 array
  [16, 8, 8, 8, 8, 8] the host code reshapes it to, position by position.

  The grid's [128, 1, 4096] output read at (n / 4096, 0, n % 4096) is the leaf's value once the arrays the host code
  prepared are read entry by entry (the projections of the boards and of the moves, the table of four-move sums, the
  biases and the output weights). A reshape only renames positions, so reshaping through [128, 4096] to rank 6 is
  reshaping the flat array of 524288 leaf values to rank 6.
-/
import proofs.«136526_j14585708937680_2_alg».proof.Proof.GridValue
import proofs.«136526_j14585708937680_2_alg».proof.Proof.KernelTables
import proofs.«136526_j14585708937680_2_alg».proof.Proof.LeafRows
import proofs.«136526_j14585708937680_2_alg».proof.Proof.LibCastVia
import proofs.«136526_j14585708937680_2_alg».proof.Proof.LeafSpec

set_option maxRecDepth 16384

noncomputable section

open scoped BigOperators

namespace Cert.KernelLeaves

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The array the grid leaves, from the six arrays the host code prepared for its windows. -/
abbrev gridOut : S128x1x4096.Idx → EReal :=
  Cert.GridValue.rows (V m c main_v19) (V m c main_v20) (V m c main_v15) (V m c main_v16) (V m c main_v17) (V m c main_v18)

/-- The value of leaf number n from the six argument arrays, projections first: the boards and the moves read
    flattened to 64 squares, the first weights as a 64 × 256 matrix, the biases and output weights as they are. -/
def spec : Fin 524288 → EReal :=
  Cert.LeafSpec.leafProj (Cert.LeafSpec.boards (m ((c : Thread nD τ).loc main_arg0))) (Cert.LeafSpec.boards (m ((c : Thread nD τ).loc main_arg1)))
    (fun k j => m ((c : Thread nD τ).loc main_arg2) (ix2 k j)) (fun j => m ((c : Thread nD τ).loc main_arg3) (ix1 j))
    (fun j => m ((c : Thread nD τ).loc main_arg4) (ix2 j (0 : Fin 1))) (m ((c : Thread nD τ).loc main_arg5) (ix1 (0 : Fin 1)))

/-- Position l of the flattened output is the value of leaf number l. -/
theorem flat_eq (h : S128x1x4096.ShapeCasts ⟨1, ![524288]⟩) (l : (⟨1, ![524288]⟩ : Shape).Idx) :
    shapeCast ⟨1, ![524288]⟩ (gridOut m c) h l = spec m c (⟨(l 0).val, (l 0).isLt⟩ : Fin 524288) := by
  have el : l = ix1 (⟨(l 0).val, (l 0).isLt⟩ : Fin 524288) := by
    funext a
    match a with
    | ⟨0, _⟩ => rfl
  refine (congrArg (shapeCast ⟨1, ![524288]⟩ (gridOut m c) h) el).trans ?_
  refine (CastVia.shapeCast_128x1x4096_flat_apply (gridOut m c) h _).trans ?_
  unfold spec
  exact Cert.LeafRows.rows_eq_leafProj
    (V m c main_v19) (V m c main_v20) (V m c main_v15) (V m c main_v16) (V m c main_v17) (V m c main_v18)
    (Cert.LeafSpec.boards (m ((c : Thread nD τ).loc main_arg0))) (Cert.LeafSpec.boards (m ((c : Thread nD τ).loc main_arg1)))
    (fun k j => m ((c : Thread nD τ).loc main_arg2) (ix2 k j)) (fun j => m ((c : Thread nD τ).loc main_arg3) (ix1 j))
    (fun j => m ((c : Thread nD τ).loc main_arg4) (ix2 j (0 : Fin 1))) (m ((c : Thread nD τ).loc main_arg5) (ix1 (0 : Fin 1)))
    (fun r j => Cert.KernelTables.main_v15_apply m c r j)
    (fun b j => Cert.KernelTables.main_v19_apply m c b j)
    (fun a j => Cert.KernelTables.main_v20_apply m c a j)
    (fun j => Cert.KernelTables.main_v16_apply m c j)
    (fun j => Cert.KernelTables.main_v17_apply m c j)
    (Cert.KernelTables.main_v18_apply m c)
    (⟨(l 0).val, (l 0).isLt⟩ : Fin 524288)

/-- The output reshaped through [128, 4096] to [16, 8, 8, 8, 8, 8] is the flat array of the 524288 leaf values
    reshaped to [16, 8, 8, 8, 8, 8]. -/
theorem leaves_eq (h1 : S128x1x4096.ShapeCasts S128x4096) (h2 : S128x4096.ShapeCasts S16x8x8x8x8x8)
    (h3 : (⟨1, ![524288]⟩ : Shape).ShapeCasts S16x8x8x8x8x8) :
    shapeCast S16x8x8x8x8x8 (shapeCast S128x4096 (gridOut m c) h1) h2
      = shapeCast S16x8x8x8x8x8
          (fun l : (⟨1, ![524288]⟩ : Shape).Idx => spec m c (⟨(l 0).val, (l 0).isLt⟩ : Fin 524288)) h3 := by
  have hf : S128x1x4096.ShapeCasts ⟨1, ![524288]⟩ := by decide
  have h6 : S128x1x4096.ShapeCasts S16x8x8x8x8x8 := by decide
  exact (CastVia.shapeCast_via (gridOut m c) h1 h2 h6).trans
    ((CastVia.shapeCast_via (gridOut m c) hf h3 h6).symm.trans
      (congrArg (fun v => shapeCast S16x8x8x8x8x8 v h3) (funext fun l => flat_eq m c hf l)))

end Cert.KernelLeaves

end
-- ==== Proof.RefLeaf.lean ====
/-
  The reference program's leaf values, read entry by entry.

  The reference builds the 16·8⁵ leaf boards level by level: at each level every board is paired with each of the 8
  moves, the move's board is added, and the pairs are renumbered in row-major order, so that the board numbered p after
  the step is the board numbered p / 8 before it plus the move p % 8. Five such steps, read from the last one back,
  give board n of the leaves as ((((x b + d m1) + d m2) + d m3) + d m4) + d m5 with b = n / 32768 and
  m1 … m5 the base-8 digits of n % 32768, most significant first. Flattening a board to 64 squares reads square k at
  row k / 8, column k % 8. The evaluator's two layers are then sums over the 64 squares and the 256 hidden units.
-/
import proofs.«136526_j14585708937680_2_alg».proof.Proof.Gen.ReferenceIdeal.Read
import proofs.«136526_j14585708937680_2_alg».proof.Proof.LeafSpec

noncomputable section

open scoped BigOperators

namespace Cert.RefLeaf

open Cert.ReferenceIdeal Cert.ReferenceIdeal.Read Cert.LeafSpec Idealize.ShloMosaic Idealize.ShloMosaic.ValueIdx

/-- The first step: board p of the 128 is board q = p / 8 of the 16 before it plus move m = p % 8, square by square. -/
theorem level1 (x0 : (⟨S16x8x8, .f32⟩ : BufTy).Contents (Elt Ideal)) (x1 : (⟨S8x8x8, .f32⟩ : BufTy).Contents (Elt Ideal))
    (p : Fin 128) (q : Fin 16) (m : Fin 8) (r c : Fin 8) (hq : q.val = p.val / 8) (hm : m.val = p.val % 8) :
    val_main_v5 (F := Ideal) x0 x1 (ix3 p r c) = x0 (ix3 q r c) + x1 (ix3 m r c) := by
  have hp := p.isLt
  have hr := r.isLt
  have hc := c.isLt
  rw [val_main_v5_apply, val_main_v4_apply, val_main_v2_apply, val_main_v0_apply, val_main_v3_apply, val_main_v1_apply]
  show _ + _ = _ + _
  refine congrArg₂ _ ?_ ?_
  · refine congrArg x0 (funext fun a => Fin.ext ?_)
    match a with
    | ⟨0, _⟩ => show ((p.val * 8 + r.val) * 8 + c.val) / 512 = q.val; omega
    | ⟨1, _⟩ => show ((p.val * 8 + r.val) * 8 + c.val) / 8 % 8 = r.val; omega
    | ⟨2, _⟩ => show ((p.val * 8 + r.val) * 8 + c.val) % 8 = c.val; omega
  · refine congrArg x1 (funext fun a => Fin.ext ?_)
    match a with
    | ⟨0, _⟩ => show ((p.val * 8 + r.val) * 8 + c.val) / 64 % 8 = m.val; omega
    | ⟨1, _⟩ => show ((p.val * 8 + r.val) * 8 + c.val) / 8 % 8 = r.val; omega
    | ⟨2, _⟩ => show ((p.val * 8 + r.val) * 8 + c.val) % 8 = c.val; omega

/-- The second step: board p of the 1024 is board q = p / 8 of the 128 before it plus move m = p % 8, square by square. -/
theorem level2 (x0 : (⟨S16x8x8, .f32⟩ : BufTy).Contents (Elt Ideal)) (x1 : (⟨S8x8x8, .f32⟩ : BufTy).Contents (Elt Ideal))
    (p : Fin 1024) (q : Fin 128) (m : Fin 8) (r c : Fin 8) (hq : q.val = p.val / 8) (hm : m.val = p.val % 8) :
    val_main_v11 (F := Ideal) x0 x1 (ix3 p r c) = val_main_v5 (F := Ideal) x0 x1 (ix3 q r c) + x1 (ix3 m r c) := by
  have hp := p.isLt
  have hr := r.isLt
  have hc := c.isLt
  rw [val_main_v11_apply, val_main_v10_apply, val_main_v8_apply, val_main_v6_apply, val_main_v9_apply, val_main_v7_apply]
  show _ + _ = _ + _
  refine congrArg₂ _ ?_ ?_
  · refine congrArg (val_main_v5 (F := Ideal) x0 x1) (funext fun a => Fin.ext ?_)
    match a with
    | ⟨0, _⟩ => show ((p.val * 8 + r.val) * 8 + c.val) / 512 = q.val; omega
    | ⟨1, _⟩ => show ((p.val * 8 + r.val) * 8 + c.val) / 8 % 8 = r.val; omega
    | ⟨2, _⟩ => show ((p.val * 8 + r.val) * 8 + c.val) % 8 = c.val; omega
  · refine congrArg x1 (funext fun a => Fin.ext ?_)
    match a with
    | ⟨0, _⟩ => show ((p.val * 8 + r.val) * 8 + c.val) / 64 % 8 = m.val; omega
    | ⟨1, _⟩ => show ((p.val * 8 + r.val) * 8 + c.val) / 8 % 8 = r.val; omega
    | ⟨2, _⟩ => show ((p.val * 8 + r.val) * 8 + c.val) % 8 = c.val; omega

/-- The third step: board p of the 8192 is board q = p / 8 of the 1024 before it plus move m = p % 8, square by square. -/
theorem level3 (x0 : (⟨S16x8x8, .f32⟩ : BufTy).Contents (Elt Ideal)) (x1 : (⟨S8x8x8, .f32⟩ : BufTy).Contents (Elt Ideal))
    (p : Fin 8192) (q : Fin 1024) (m : Fin 8) (r c : Fin 8) (hq : q.val = p.val / 8) (hm : m.val = p.val % 8) :
    val_main_v17 (F := Ideal) x0 x1 (ix3 p r c) = val_main_v11 (F := Ideal) x0 x1 (ix3 q r c) + x1 (ix3 m r c) := by
  have hp := p.isLt
  have hr := r.isLt
  have hc := c.isLt
  rw [val_main_v17_apply, val_main_v16_apply, val_main_v14_apply, val_main_v12_apply, val_main_v15_apply, val_main_v13_apply]
  show _ + _ = _ + _
  refine congrArg₂ _ ?_ ?_
  · refine congrArg (val_main_v11 (F := Ideal) x0 x1) (funext fun a => Fin.ext ?_)
    match a with
    | ⟨0, _⟩ => show ((p.val * 8 + r.val) * 8 + c.val) / 512 = q.val; omega
    | ⟨1, _⟩ => show ((p.val * 8 + r.val) * 8 + c.val) / 8 % 8 = r.val; omega
    | ⟨2, _⟩ => show ((p.val * 8 + r.val) * 8 + c.val) % 8 = c.val; omega
  · refine congrArg x1 (funext fun a => Fin.ext ?_)
    match a with
    | ⟨0, _⟩ => show ((p.val * 8 + r.val) * 8 + c.val) / 64 % 8 = m.val; omega
    | ⟨1, _⟩ => show ((p.val * 8 + r.val) * 8 + c.val) / 8 % 8 = r.val; omega
    | ⟨2, _⟩ => show ((p.val * 8 + r.val) * 8 + c.val) % 8 = c.val; omega

/-- The fourth step: board p of the 65536 is board q = p / 8 of the 8192 before it plus move m = p % 8, square by square. -/
theorem level4 (x0 : (⟨S16x8x8, .f32⟩ : BufTy).Contents (Elt Ideal)) (x1 : (⟨S8x8x8, .f32⟩ : BufTy).Contents (Elt Ideal))
    (p : Fin 65536) (q : Fin 8192) (m : Fin 8) (r c : Fin 8) (hq : q.val = p.val / 8) (hm : m.val = p.val % 8) :
    val_main_v23 (F := Ideal) x0 x1 (ix3 p r c) = val_main_v17 (F := Ideal) x0 x1 (ix3 q r c) + x1 (ix3 m r c) := by
  have hp := p.isLt
  have hr := r.isLt
  have hc := c.isLt
  rw [val_main_v23_apply, val_main_v22_apply, val_main_v20_apply, val_main_v18_apply, val_main_v21_apply, val_main_v19_apply]
  show _ + _ = _ + _
  refine congrArg₂ _ ?_ ?_
  · refine congrArg (val_main_v17 (F := Ideal) x0 x1) (funext fun a => Fin.ext ?_)
    match a with
    | ⟨0, _⟩ => show ((p.val * 8 + r.val) * 8 + c.val) / 512 = q.val; omega
    | ⟨1, _⟩ => show ((p.val * 8 + r.val) * 8 + c.val) / 8 % 8 = r.val; omega
    | ⟨2, _⟩ => show ((p.val * 8 + r.val) * 8 + c.val) % 8 = c.val; omega
  · refine congrArg x1 (funext fun a => Fin.ext ?_)
    match a with
    | ⟨0, _⟩ => show ((p.val * 8 + r.val) * 8 + c.val) / 64 % 8 = m.val; omega
    | ⟨1, _⟩ => show ((p.val * 8 + r.val) * 8 + c.val) / 8 % 8 = r.val; omega
    | ⟨2, _⟩ => show ((p.val * 8 + r.val) * 8 + c.val) % 8 = c.val; omega

/-- The fifth step: board p of the 524288 is board q = p / 8 of the 65536 before it plus move m = p % 8, square by square. -/
theorem level5 (x0 : (⟨S16x8x8, .f32⟩ : BufTy).Contents (Elt Ideal)) (x1 : (⟨S8x8x8, .f32⟩ : BufTy).Contents (Elt Ideal))
    (p : Fin 524288) (q : Fin 65536) (m : Fin 8) (r c : Fin 8) (hq : q.val = p.val / 8) (hm : m.val = p.val % 8) :
    val_main_v29 (F := Ideal) x0 x1 (ix3 p r c) = val_main_v23 (F := Ideal) x0 x1 (ix3 q r c) + x1 (ix3 m r c) := by
  have hp := p.isLt
  have hr := r.isLt
  have hc := c.isLt
  rw [val_main_v29_apply, val_main_v28_apply, val_main_v26_apply, val_main_v24_apply, val_main_v27_apply, val_main_v25_apply]
  show _ + _ = _ + _
  refine congrArg₂ _ ?_ ?_
  · refine congrArg (val_main_v23 (F := Ideal) x0 x1) (funext fun a => Fin.ext ?_)
    match a with
    | ⟨0, _⟩ => show ((p.val * 8 + r.val) * 8 + c.val) / 512 = q.val; omega
    | ⟨1, _⟩ => show ((p.val * 8 + r.val) * 8 + c.val) / 8 % 8 = r.val; omega
    | ⟨2, _⟩ => show ((p.val * 8 + r.val) * 8 + c.val) % 8 = c.val; omega
  · refine congrArg x1 (funext fun a => Fin.ext ?_)
    match a with
    | ⟨0, _⟩ => show ((p.val * 8 + r.val) * 8 + c.val) / 64 % 8 = m.val; omega
    | ⟨1, _⟩ => show ((p.val * 8 + r.val) * 8 + c.val) / 8 % 8 = r.val; omega
    | ⟨2, _⟩ => show ((p.val * 8 + r.val) * 8 + c.val) % 8 = c.val; omega

/-- Board n of the leaves at square k: the root's board plus the five moves' boards, added in the order played. -/
theorem board_leaf (x0 : (⟨S16x8x8, .f32⟩ : BufTy).Contents (Elt Ideal)) (x1 : (⟨S8x8x8, .f32⟩ : BufTy).Contents (Elt Ideal))
    (n : Fin 524288) (k : Fin 64) :
    val_main_v30 (F := Ideal) x0 x1 (ix2 n k)
      = ((((boards x0 (root n) k + boards x1 (mv1 n) k) + boards x1 (mv2 n) k) + boards x1 (mv3 n) k)
          + boards x1 (mv4 n) k) + boards x1 (mv5 n) k := by
  have hn := n.isLt
  have hk := k.isLt
  -- square k of the flattened board is row k / 8, column k % 8 of board n
  have h30 : idx_main_v30 (ix2 n k)
      = ix3 n (⟨k.val / 8, by omega⟩ : Fin 8) (⟨k.val % 8, by omega⟩ : Fin 8) := by
    funext a; apply Fin.ext
    match a with
    | ⟨0, _⟩ => show (n.val * 64 + k.val) / 64 = n.val; omega
    | ⟨1, _⟩ => show (n.val * 64 + k.val) / 8 % 8 = k.val / 8; omega
    | ⟨2, _⟩ => show (n.val * 64 + k.val) % 8 = k.val % 8; omega
  rw [val_main_v30_apply, h30,
    level5 x0 x1 n ⟨n.val / 8, by omega⟩ (mv5 n) _ _ rfl rfl,
    level4 x0 x1 ⟨n.val / 8, by omega⟩ ⟨n.val / 64, by omega⟩ (mv4 n) _ _
      (by show n.val / 64 = n.val / 8 / 8; omega) (by show n.val / 8 % 8 = n.val / 8 % 8; rfl),
    level3 x0 x1 ⟨n.val / 64, by omega⟩ ⟨n.val / 512, by omega⟩ (mv3 n) _ _
      (by show n.val / 512 = n.val / 64 / 8; omega) (by show n.val / 64 % 8 = n.val / 64 % 8; rfl),
    level2 x0 x1 ⟨n.val / 512, by omega⟩ ⟨n.val / 4096, by omega⟩ (mv2 n) _ _
      (by show n.val / 4096 = n.val / 512 / 8; omega) (by show n.val / 512 % 8 = n.val / 512 % 8; rfl),
    level1 x0 x1 ⟨n.val / 4096, by omega⟩ (root n) (mv1 n) _ _
      (by show n.val / 32768 = n.val / 4096 / 8; omega) (by show n.val / 4096 % 8 = n.val / 4096 % 8; rfl)]
  rfl

/-- The pre-activation of hidden unit j at leaf n: the leaf's board against column j of the first layer, plus the bias. -/
theorem pre_leaf (x0 : (⟨S16x8x8, .f32⟩ : BufTy).Contents (Elt Ideal)) (x1 : (⟨S8x8x8, .f32⟩ : BufTy).Contents (Elt Ideal))
    (x2 : (⟨S64x256, .f32⟩ : BufTy).Contents (Elt Ideal)) (x3 : (⟨S256, .f32⟩ : BufTy).Contents (Elt Ideal))
    (n : Fin 524288) (j : Fin 256) :
    val_main_v34 (F := Ideal) x0 x1 x2 x3 (ix2 n j)
      = preBoard (boards x0) (boards x1) (fun k j => x2 (ix2 k j)) (fun j => x3 (ix1 j))
          (root n) (mv1 n) (mv2 n) (mv3 n) (mv4 n) (mv5 n) j := by
  rw [val_main_v34_apply, val_main_v31_apply, val_main_v33_apply, val_main_v32_apply]
  unfold preBoard
  show _ + _ = _ + _
  refine congrArg₂ _ ?_ ?_
  · refine Finset.sum_congr rfl fun k _ => ?_
    have hl : lidx_main_v31 (ix2 n j) k = ix2 n k := by
      funext a
      match a with
      | ⟨0, _⟩ => rfl
      | ⟨1, _⟩ => rfl
    have hr : ridx_main_v31 (ix2 n j) k = ix2 k j := by
      funext a
      match a with
      | ⟨0, _⟩ => rfl
      | ⟨1, _⟩ => rfl
    rw [hl, hr, board_leaf]
  · refine congrArg x3 (funext fun a => ?_)
    match a with
    | ⟨0, _⟩ => rfl

/-- The value of leaf n before the last renumbering: the hidden layer's tanh against the second layer, plus the bias. -/
theorem value_leaf (x0 : (⟨S16x8x8, .f32⟩ : BufTy).Contents (Elt Ideal)) (x1 : (⟨S8x8x8, .f32⟩ : BufTy).Contents (Elt Ideal))
    (x2 : (⟨S64x256, .f32⟩ : BufTy).Contents (Elt Ideal)) (x3 : (⟨S256, .f32⟩ : BufTy).Contents (Elt Ideal))
    (x4 : (⟨S256x1, .f32⟩ : BufTy).Contents (Elt Ideal)) (x5 : (⟨S1, .f32⟩ : BufTy).Contents (Elt Ideal))
    (n : Fin 524288) :
    val_main_v39 (F := Ideal) x0 x1 x2 x3 x4 x5 (ix2 n (0 : Fin 1))
      = leafBoard (boards x0) (boards x1) (fun k j => x2 (ix2 k j)) (fun j => x3 (ix1 j))
          (fun j => x4 (ix2 j (0 : Fin 1))) (x5 (ix1 (0 : Fin 1))) n := by
  rw [val_main_v39_apply, val_main_v36_apply, val_main_v38_apply, val_main_v37_apply]
  unfold leafBoard value
  show _ + _ = _ + _
  refine congrArg₂ _ ?_ ?_
  · refine Finset.sum_congr rfl fun j _ => ?_
    have hl : lidx_main_v36 (ix2 n (0 : Fin 1)) j = ix2 n j := by
      funext a
      match a with
      | ⟨0, _⟩ => rfl
      | ⟨1, _⟩ => rfl
    have hr : ridx_main_v36 (ix2 n (0 : Fin 1)) j = ix2 j (0 : Fin 1) := by
      funext a
      match a with
      | ⟨0, _⟩ => rfl
      | ⟨1, _⟩ => rfl
    rw [hl, hr, val_main_v35_apply, Ideal.hostUnary_tanh_def, pre_leaf]
  · refine congrArg x5 (funext fun a => ?_)
    match a with
    | ⟨0, _⟩ => rfl

/-- The flat vector of leaf values: entry l is the value of leaf number l, its board built first. -/
theorem flat_leaf (x0 : (⟨S16x8x8, .f32⟩ : BufTy).Contents (Elt Ideal)) (x1 : (⟨S8x8x8, .f32⟩ : BufTy).Contents (Elt Ideal))
    (x2 : (⟨S64x256, .f32⟩ : BufTy).Contents (Elt Ideal)) (x3 : (⟨S256, .f32⟩ : BufTy).Contents (Elt Ideal))
    (x4 : (⟨S256x1, .f32⟩ : BufTy).Contents (Elt Ideal)) (x5 : (⟨S1, .f32⟩ : BufTy).Contents (Elt Ideal))
    (l : S524288.Idx) :
    val_main_v40 (F := Ideal) x0 x1 x2 x3 x4 x5 l
      = leafBoard (boards x0) (boards x1) (fun k j => x2 (ix2 k j)) (fun j => x3 (ix1 j))
          (fun j => x4 (ix2 j (0 : Fin 1))) (x5 (ix1 (0 : Fin 1))) (l 0) := by
  obtain ⟨n, rfl⟩ : ∃ n : Fin 524288, l = ix1 n := ⟨l 0, eq_ix1 l⟩
  have h40 : idx_main_v40 (ix1 n) = ix2 n (0 : Fin 1) := by
    funext a; apply Fin.ext
    match a with
    | ⟨0, _⟩ => show n.val / 1 = n.val; omega
    | ⟨1, _⟩ => rfl
  rw [val_main_v40_apply, h40]
  exact value_leaf x0 x1 x2 x3 x4 x5 n

end Cert.RefLeaf

end
-- ==== Proof.Agree.lean ====
/-
  The two programs' results are equal.

  Both results are the backing-up of a [16,8,8,8,8,8] array of leaf values. The kernel's array is the grid's [128,1,4096]
  output viewed [128,4096] and then rank 6; the reference's is its flat vector of 16·8⁵ values viewed rank 6. Two reshapes
  in a row are one, so both are the rank-6 view of a flat vector: for the kernel the vector of the specification's
  values with the projections taken first, for the reference the vector with the leaf boards built first. Under the
  precondition every entry of the roots, of the deltas and of W1 is a real number, and the two spellings agree.
-/
import proofs.«136526_j14585708937680_2_alg».proof.Proof.KernelRun
import proofs.«136526_j14585708937680_2_alg».proof.Proof.RefResult
import proofs.«136526_j14585708937680_2_alg».proof.Proof.RealEntries
import proofs.«136526_j14585708937680_2_alg».proof.Proof.KernelLeaves
import proofs.«136526_j14585708937680_2_alg».proof.Proof.RefLeaf

set_option maxRecDepth 16384

noncomputable section

namespace Cert.Agree

open Idealize.ShloMosaic Idealize.ShloMosaic.ValueIdx Idealize.ShloMosaic.TcCoe Idealize.SL.Sem

variable (m : (ℓ : Loc Cert.KernelIdeal.nD Cert.KernelIdeal.τ Cert.KernelIdeal.sig) → Buf (Elt Ideal) ℓ)
  (c : Dev Cert.KernelIdeal.nD)

/-- Under the precondition the reference's result, at the kernel's argument arrays, is the kernel's result. -/
theorem ref_eq_kernel
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1) :
    Cert.ReferenceIdeal.Read.val_main_v46 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = Cert.KernelRun.result m c := by
  obtain ⟨h0, h1, h2, -, -, -⟩ := Cert.RealEntries.real_of_pre _ _ _ _ _ _ hpre
  have hx : ∀ (b : Fin 16) (k : Fin 64), ∃ r : ℝ, Cert.LeafSpec.boards
      (m ((c.tc : Thread Cert.KernelIdeal.nD Cert.KernelIdeal.τ).loc Cert.KernelIdeal.main_arg0)) b k = (r : EReal) :=
    fun b k => h0 _
  have hd : ∀ (a : Fin 8) (k : Fin 64), ∃ r : ℝ, Cert.LeafSpec.boards
      (m ((c.tc : Thread Cert.KernelIdeal.nD Cert.KernelIdeal.τ).loc Cert.KernelIdeal.main_arg1)) a k = (r : EReal) :=
    fun a k => h1 _
  have hW : ∀ (k : Fin 64) (j : Fin 256), ∃ r : ℝ,
      m ((c.tc : Thread Cert.KernelIdeal.nD Cert.KernelIdeal.τ).loc Cert.KernelIdeal.main_arg2) (ix2 k j) = (r : EReal) :=
    fun k j => h2 _
  -- the two [16,8,8,8,8,8] arrays of leaf values are one array
  have e : shapeCast Cert.ReferenceIdeal.S16x8x8x8x8x8 (Cert.ReferenceIdeal.Read.val_main_v40 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
        Cert.ReferenceIdeal.Gen.shapeCasts_S524288_S16x8x8x8x8x8
      = shapeCast Cert.KernelIdeal.S16x8x8x8x8x8 (shapeCast Cert.KernelIdeal.S128x4096 (Cert.KernelRun.gridOut m c)
          Cert.KernelIdeal.Gen.shapeCasts_S128x1x4096_S128x4096) Cert.KernelIdeal.Gen.shapeCasts_S128x4096_S16x8x8x8x8x8 := by
    refine Eq.trans ?_ (Cert.KernelLeaves.leaves_eq m c _ _ (by decide)).symm
    refine congrArg (fun v : (⟨1, ![524288]⟩ : Shape).Idx → EReal =>
      shapeCast Cert.KernelIdeal.S16x8x8x8x8x8 v (by decide)) (funext fun l => ?_)
    refine (Cert.RefLeaf.flat_leaf _ _ _ _ _ _ l).trans ?_
    exact Cert.RealEntries.leafBoard_eq_leafProj _ _ _ _ _ _ hx hd hW _
  refine (Cert.RefResult.result_eq _ _ _ _ _ _).trans ?_
  exact congrArg (Cert.Minimax.backup Cert.KernelIdeal.Gen.reducesTo_S16x8x8x8x8x8_S16x8x8x8x8_d5
    Cert.KernelIdeal.Gen.reducesTo_S16x8x8x8x8_S16x8x8x8_d4 Cert.KernelIdeal.Gen.reducesTo_S16x8x8x8_S16x8x8_d3
    Cert.KernelIdeal.Gen.reducesTo_S16x8x8_S16x8_d2 Cert.KernelIdeal.Gen.reducesTo_S16x8_S16_d1 Cert.KernelIdeal.Gen.h_S_) e

end Cert.Agree

end
-- ==== Proof.lean ====
/-
  A five-ply game-tree search with a learned evaluator: the kernel against its reference, on the extended reals.

  Both programs compute, for each of 16 root boards, the minimax value (max, min, max, min, max over five moves of 8)
  of the evaluator's value at the 8⁵ leaves under the root, a leaf's board being the root plus the five moves' deltas and
  the evaluator  board ↦ Σ_j tanh(Σ_k board_k · W1 k j + b1 j) · W2 j + b2.

  The reference builds every leaf board and multiplies it by W1. The kernel multiplies the 16 roots and the 8 deltas by
  W1 once, adds the projections (the last four moves' as a 4096-row table built on the host, the root's and the first
  move's inside the grid, one grid point per root and first move), and evaluates tanh, the weighted sum and the bias in
  the grid; its host code then reshapes and backs the values up exactly as the reference does.

  The two pre-activations are the two sides of  Σ_k (x_k + d1_k + … + d5_k)·w_k = Σ_k x_k·w_k + Σ_k d1_k·w_k + … ,
  which holds for real entries and can fail at the infinities of the extended reals: this is where the precondition
  (every input entry finite) is used. Everything after the pre-activation is the same function on both sides.

  The modules: LeafSpec (the leaf's value, both spellings), RealEntries (finite inputs are real; the law),
  BodyValue (what one grid step stores), GridValue (the array the grid leaves), KernelTables (the arrays the kernel's
  host code prepares), LeafRows and KernelLeaves (the grid's array is the spec's leaf vector), KernelRun (the kernel
  program's run with its result named), RefLeaf and RefResult (the reference's leaf vector and result), Minimax (the
  shared backing-up), Agree (the two results are equal).
-/
import proofs.«136526_j14585708937680_2_alg».proof.Defs
import proofs.«136526_j14585708937680_2_alg».proof.Proof.Gen.Kernel
import proofs.«136526_j14585708937680_2_alg».proof.Proof.Gen.Kernel.Skeleton
import proofs.«136526_j14585708937680_2_alg».proof.Proof.Gen.Kernel.Launch
import proofs.«136526_j14585708937680_2_alg».proof.Proof.Gen.Kernel.Points
import proofs.«136526_j14585708937680_2_alg».proof.Proof.Gen.Kernel.Frame
import proofs.«136526_j14585708937680_2_alg».proof.Proof.Gen.KernelIdeal
import proofs.«136526_j14585708937680_2_alg».proof.Proof.Gen.KernelIdeal.Skeleton
import proofs.«136526_j14585708937680_2_alg».proof.Proof.Gen.KernelIdeal.Launch
import proofs.«136526_j14585708937680_2_alg».proof.Proof.Gen.KernelIdeal.Points
import proofs.«136526_j14585708937680_2_alg».proof.Proof.Gen.KernelIdeal.Frame
import proofs.«136526_j14585708937680_2_alg».proof.Proof.Gen.ReferenceIdeal
import proofs.«136526_j14585708937680_2_alg».proof.Proof.Gen.Pre_finite_inputs
import proofs.«136526_j14585708937680_2_alg».proof.Proof.Gen.ReferenceIdeal.Run
import proofs.«136526_j14585708937680_2_alg».proof.Proof.Gen.ReferenceIdeal.Read
import proofs.«136526_j14585708937680_2_alg».proof.Proof.KernelRun
import proofs.«136526_j14585708937680_2_alg».proof.Proof.Agree
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel on the extended reals is the printed kernel's own text: no operation was rewritten. -/
theorem preserves : Cert.preserves_Kernel_KernelIdeal := trivial

/-- From memories that agree on the six arguments, all finite, the two programs end with the same sixteen root values. -/
theorem algebraic : Cert.algebraic_KernelIdeal_ReferenceIdeal := by
  intro m ρ m' ρ' hpre hagree
  refine ⟨fun c => Cert.KernelRun.result m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2.1,
    (hagree c).2.2.2.2.1, (hagree c).2.2.2.2.2]
  exact Cert.Agree.ref_eq_kernel m c (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
